-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x132 : Shape := ⟨2, ![100000, 132]⟩
abbrev S2x3200000 : Shape := ⟨2, ![2, 3200000]⟩
abbrev S132x16 : Shape := ⟨2, ![132, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x132 : S_.BroadcastsInDim S100000x132 (![] : Fin 0 → Fin S100000x132.rank)
  reducesTo_S100000x132_S_d0_1 : S100000x132.ReducesTo [0, 1] S_
  h_S_ : 0 < S_.numel
  bcast_S_S132x16 : S_.BroadcastsInDim S132x16 (![] : Fin 0 → Fin S132x16.rank)
  reducesTo_S132x16_S_d0_1 : S132x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x132 .f32) (main_arg1 : IVec S2x3200000 32) (main_arg2 : FVec F S132x16 .f32) (main_arg3 : FVec F S16 .f32) (main_arg4 : FVec F S16x10 .f32) (main_arg5 : FVec F S10 .f32) : IVec S_ 1 :=
  let main_v0 : FVec F S100000x132 .f32 := Host.absf main_arg0
  let main_cst : FVec F S_ .f32 := constant S_ .f32 0x7F800000#32
  let main_v1 : FVec F S100000x132 .f32 := broadcastInDim S100000x132 ![] bcast_S_S100000x132 main_cst
  let main_v2 : IVec S100000x132 1 := cmpf .olt main_v0 main_v1
  let main_c : IVec S_ 1 := constantI S_ 1 1#1
  let main_v3 : IVec S_ 1 := (fun x v => Host.reduce IntOp.andi x v reducesTo_S100000x132_S_d0_1 h_S_) main_v2 main_c
  let main_v4 : FVec F S132x16 .f32 := Host.absf main_arg2
  let main_cst_0 : FVec F S_ .f32 := constant S_ .f32 0x7F800000#32
  let main_v5 : FVec F S132x16 .f32 := broadcastInDim S132x16 ![] bcast_S_S132x16 main_cst_0
  let main_v6 : IVec S132x16 1 := cmpf .olt main_v4 main_v5
  let main_c_1 : IVec S_ 1 := constantI S_ 1 1#1
  let main_v7 : IVec S_ 1 := (fun x v => Host.reduce IntOp.andi x v reducesTo_S132x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x132 : Shape := ⟨2, ![100000, 132]⟩
abbrev S2x3200000 : Shape := ⟨2, ![2, 3200000]⟩
abbrev S132x16 : Shape := ⟨2, ![132, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x132 : Shape := ⟨2, ![10000, 132]⟩
abbrev S10000x16 : Shape := ⟨2, ![10000, 16]⟩
abbrev S3300000x16 : Shape := ⟨2, ![3300000, 16]⟩
abbrev S1x16 : Shape := ⟨2, ![1, 16]⟩
abbrev S100000x10 : Shape := ⟨2, ![100000, 10]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x132, .f32⟩
  | .hbm, ⟨1, _⟩ => ⟨S2x3200000, .i32⟩
  | .hbm, ⟨2, _⟩ => ⟨S132x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x10, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x10, .f32⟩
  | .hbm, ⟨75, _⟩ => ⟨S3300000x1, .f32⟩
  | .hbm, ⟨76, _⟩ => ⟨S3300000x10, .f32⟩
  | .hbm, ⟨77, _⟩ => ⟨S3300000x10, .f32⟩
  | .hbm, ⟨78, _⟩ => ⟨S_, .f32⟩
  | .hbm, ⟨79, _⟩ => ⟨S100000x10, .f32⟩
  | .hbm, ⟨80, _⟩ => ⟨S3300000x1, .i32⟩
  | .hbm, ⟨81, _⟩ => ⟨S100000x10, .f32⟩
  | .hbm, ⟨82, _⟩ => ⟨S1x10, .f32⟩
  | .hbm, ⟨83, _⟩ => ⟨S100000x10, .f32⟩
  | .local _ .vmem, ⟨0, _⟩ => ⟨S10000x132, .f32⟩
  | .local _ .vmem, ⟨1, _⟩ => ⟨S10000x132, .f32⟩
  | .local _ .vmem, ⟨2, _⟩ => ⟨S132x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x10, .f32⟩
  | .local _ .vmem, ⟨13, _⟩ => ⟨S10000x10, .f32⟩
  | .local _ .vmem, ⟨14, _⟩ => ⟨S10000x10, .f32⟩
  | .local _ .vmem, ⟨15, _⟩ => ⟨S10000x10, .f32⟩
  | .local _ .vmem, ⟨16, _⟩ => ⟨S10000x10, .f32⟩
  | .local _ .vmem, ⟨17, _⟩ => ⟨S1x10, .f32⟩
  | .local _ .vmem, ⟨18, _⟩ => ⟨S10000x10, .f32⟩
  | .local _ .vmem, ⟨19, _⟩ => ⟨S10000x10, .f32⟩
  | _, _ => ⟨S100000x132, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S132x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x10 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x132_S10000x132_0_0 : ∀ a, (![0, 0] : Fin 2 → Nat) a + S10000x132.size a ≤ S10000x132.size a
  h_S10000x132 : 0 < S10000x132.numel
  bitsLt_bf16_f32 : FTy.bits .bf16 < FTy.bits .f32
  inb_S132x16_S132x16_0_0 : ∀ a, (![0, 0] : Fin 2 → Nat) a + S132x16.size a ≤ S132x16.size a
  h_S132x16 : 0 < S132x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x132_S132x16_S10000x16_1_0_0_1_n_n_wf : DotDims.WF S10000x132 S132x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x132.size a ≤ S100000x132.size a
  hwx0_0 : ∀ i : grid0.Coords, EltTy.bits .f32 = 32 ∨ (Rect.block (s := S100000x132) S10000x132.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S132x16.size a ≤ S132x16.size a
  hwx0_1 : ∀ i : grid0.Coords, EltTy.bits .f32 = 32 ∨ (Rect.block (s := S132x16) S132x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x10.size a ≤ S16x10.size a
  hwx2_1 : ∀ i : grid2.Coords, EltTy.bits .f32 = 32 ∨ (Rect.block (s := S16x10) S16x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x10.size a ≤ S100000x10.size a
  hwx2_2 : ∀ i : grid2.Coords, EltTy.bits .f32 = 32 ∨ (Rect.block (s := S100000x10) S10000x10.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x10.size a ≤ S100000x10.size a
  hwx3_0 : ∀ i : grid3.Coords, EltTy.bits .f32 = 32 ∨ (Rect.block (s := S100000x10) S10000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x10.size a ≤ S1x10.size a
  hwx3_1 : ∀ i : grid3.Coords, EltTy.bits .f32 = 32 ∨ (Rect.block (s := S1x10) S1x10.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x10.size a ≤ S100000x10.size a
  hwx3_2 : ∀ i : grid3.Coords, EltTy.bits .f32 = 32 ∨ (Rect.block (s := S100000x10) S10000x10.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x132_S132x16_S10000x16_1_0_0_1_n_n : DotDims S10000x132 S132x16 S10000x16 where
  lhsContracting := [1]
  rhsContracting := [0]
  lhsNonContracting := [0]
  rhsNonContracting := [1]
  lhsBatch := []
  rhsBatch := []
  wf := dot_S10000x132_S132x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S132x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x10.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x132 : Shape := ⟨2, ![100000, 132]⟩
abbrev S2x3200000 : Shape := ⟨2, ![2, 3200000]⟩
abbrev S132x16 : Shape := ⟨2, ![132, 16]⟩
abbrev S16 : Shape := ⟨1, ![16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x132, .f32⟩
  | 1 => ⟨S2x3200000, .i32⟩
  | 2 => ⟨S132x16, .f32⟩
  | 3 => ⟨S16, .f32⟩
  | 4 => ⟨S16x10, .f32⟩
  | 5 => ⟨S10, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S100000x16, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S3300000, .f32⟩
  | 109 => ⟨S100000x10, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x10, .f32⟩
  | 119 => ⟨S3300000x1, .f32⟩
  | 120 => ⟨S3300000x10, .f32⟩
  | 121 => ⟨S3300000x10, .f32⟩
  | 122 => ⟨S_, .f32⟩
  | 123 => ⟨S100000x10, .f32⟩
  | 124 => ⟨S3300000x1, .i32⟩
  | 125 => ⟨S100000x10, .f32⟩
  | 126 => ⟨S1x10, .f32⟩
  | 127 => ⟨S100000x10, .f32⟩
  | _ => ⟨S100000x132, .f32⟩

abbrev hbmTy0_1 (i : Nat) : BufTy := match i % 128 with
  | 0 => ⟨S100000x10, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x10, .f32⟩
  | 8 => ⟨S100000x10, .f32⟩
  | 9 => ⟨S100000x10, .f32⟩
  | 10 => ⟨S_, .f32⟩
  | 11 => ⟨S100000, .f32⟩
  | 12 => ⟨S100000x1, .f32⟩
  | 13 => ⟨S100000x1, .f32⟩
  | 14 => ⟨S100000x10, .f32⟩
  | 15 => ⟨S100000x10, .f32⟩
  | _ => ⟨S100000x132, .f32⟩

abbrev hbmTy (i : Nat) : BufTy := match i / 128 with
  | 0 => hbmTy0_0 i
  | 1 => hbmTy0_1 i
  | _ => ⟨S100000x132, .f32⟩

abbrev bufTy : (tb : Table) → Fin (tcTables nBuf tb) → BufTy
  | .hbm, ⟨i, _⟩ => hbmTy i
  | _, _ => ⟨S100000x132, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x132_S132x16_S100000x16_1_0_0_1_n_n_wf : DotDims.WF S100000x132 S132x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x132_S132x16_S100000x16_1_0_0_1_n_n : DotDims S100000x132 S132x16 S100000x16 where
  lhsContracting := [1]
  rhsContracting := [0]
  lhsNonContracting := [0]
  rhsNonContracting := [1]
  lhsBatch := []
  rhsBatch := []
  wf := dot_S100000x132_S132x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.KernelRun.lean ====
/-
  The idealized kernel's run with its result named.

  `@main` is nine segments: three stretches of host operations, the first matmul region, a stretch of
  host operations (the first aggregation), the bias-and-relu region, the second matmul region, a stretch of
  host operations (the second aggregation) and the log-softmax region. The buffer contents at the segment
  boundaries are the fold `W0 … W9` through those segments; the thread state after the last segment holds
  every unscoped buffer at `W9`. Reading that state against the final memory gives, on every core, the
  result buffer at `W9` and each argument at its launch contents.
-/
import proofs.«122187_j73521250173346_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of `@main` terminates without a fault, and in every final state each core's
    result buffer holds the last boundary's contents `W9` while the six arguments hold their launch
    contents. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.Spec.lean ====
/-
  The three row-wise functions a two-layer graph convolution is built from, over the extended reals, and the
  facts about them that make a row-blocked evaluation equal to a whole-array one.

  For a matrix `x` of `A` rows:
  * `matProd x w`: the product with a weight matrix, entry (p, q) = ∑ k, x(p,k) · w(k,q);
  * `biasRelu z x b`: a bias row added to every row and the maximum with `z` taken, entry (p, q) = max (x(p,q) + b(0,q)) z;
  * `logSoftmax n x b`: a bias row added to every row, then the row's log-softmax with the row maximum (taken from
    `n`) subtracted first: with v(c) = x(p,c) + b(0,c) and M = the fold of max from `n` over the row,
    entry (p, q) = (v(q) − M) − log (∑ c, exp (v(c) − M)).
  Each entry depends on row p of `x` only. So if the rows of a block `x0` are rows `R p` of a taller matrix `X`,
  the function of the block at (p, q) is the function of `X` at (R p, q): `matProd_rows`, `biasRelu_rows`,
  `logSoftmax_rows`.
-/
import Idealize.ShloMosaic.Lib.ValueIdx
import Idealize.ShloMosaic.PureOps.Ideal
import Mathlib.Data.Finset.Fold

noncomputable section

namespace Cert.Gcn

open Idealize.ShloMosaic Idealize.ShloMosaic.ValueIdx

/-- Entry (p, q) of the product of `x` ([A, K]) with `w` ([K, B]). -/
def matProdAt {A K B : ℕ} (x : (⟨2, ![A, K]⟩ : Shape).Idx → EReal) (w : (⟨2, ![K, B]⟩ : Shape).Idx → EReal)
    (p : Fin A) (q : Fin B) : EReal :=
  ∑ k : Fin K, x (ix2 p k) * w (ix2 k q)

/-- The product of `x` ([A, K]) with `w` ([K, B]). -/
def matProd {A K B : ℕ} (x : (⟨2, ![A, K]⟩ : Shape).Idx → EReal) (w : (⟨2, ![K, B]⟩ : Shape).Idx → EReal) :
    (⟨2, ![A, B]⟩ : Shape).Idx → EReal :=
  fun i => matProdAt x w (i 0) (i 1)

/-- Entry (p, q) of `max (x + b) z`, the bias a row. -/
def biasReluAt {A B : ℕ} (z : EReal) (x : (⟨2, ![A, B]⟩ : Shape).Idx → EReal) (b : (⟨2, ![1, B]⟩ : Shape).Idx → EReal)
    (p : Fin A) (q : Fin B) : EReal :=
  max (x (ix2 p q) + b (ix2 (0 : Fin 1) q)) z

/-- `max (x + b) z`, the bias row `b` added to every row of `x`. -/
def biasRelu {A B : ℕ} (z : EReal) (x : (⟨2, ![A, B]⟩ : Shape).Idx → EReal) (b : (⟨2, ![1, B]⟩ : Shape).Idx → EReal) :
    (⟨2, ![A, B]⟩ : Shape).Idx → EReal :=
  fun i => biasReluAt z x b (i 0) (i 1)

/-- Row p of `x + b`. -/
def biasedRow {A B : ℕ} (x : (⟨2, ![A, B]⟩ : Shape).Idx → EReal) (b : (⟨2, ![1, B]⟩ : Shape).Idx → EReal) (p : Fin A) :
    Fin B → EReal :=
  fun c => x (ix2 p c) + b (ix2 (0 : Fin 1) c)

/-- The log-softmax of a row `v`, its maximum (the fold of max from `n`) subtracted first, at position q. -/
def rowLogSoftmax {B : ℕ} (n : EReal) (v : Fin B → EReal) (q : Fin B) : EReal :=
  (v q - (Finset.univ : Finset (Fin B)).fold max n v)
    - Ideal.log (∑ c : Fin B, Ideal.exp (v c - (Finset.univ : Finset (Fin B)).fold max n v))

/-- Entry (p, q) of the log-softmax of the rows of `x + b`. -/
def logSoftmaxAt {A B : ℕ} (n : EReal) (x : (⟨2, ![A, B]⟩ : Shape).Idx → EReal) (b : (⟨2, ![1, B]⟩ : Shape).Idx → EReal)
    (p : Fin A) (q : Fin B) : EReal :=
  rowLogSoftmax n (biasedRow x b p) q

/-- The log-softmax of the rows of `x + b`. -/
def logSoftmax {A B : ℕ} (n : EReal) (x : (⟨2, ![A, B]⟩ : Shape).Idx → EReal) (b : (⟨2, ![1, B]⟩ : Shape).Idx → EReal) :
    (⟨2, ![A, B]⟩ : Shape).Idx → EReal :=
  fun i => logSoftmaxAt n x b (i 0) (i 1)

/-! ## A block of rows against the whole matrix -/

/-- The product of a block whose rows are rows `R p` of `X` is the product of `X` at those rows. -/
theorem matProdAt_rows {n N K B : ℕ} (x0 : (⟨2, ![n, K]⟩ : Shape).Idx → EReal) (X : (⟨2, ![N, K]⟩ : Shape).Idx → EReal)
    (w w' : (⟨2, ![K, B]⟩ : Shape).Idx → EReal) (R : Fin n → Fin N)
    (hx : ∀ (p : Fin n) (k : Fin K), x0 (ix2 p k) = X (ix2 (R p) k)) (hw : ∀ (k : Fin K) (q : Fin B), w (ix2 k q) = w' (ix2 k q))
    (p : Fin n) (q : Fin B) : matProdAt x0 w p q = matProdAt X w' (R p) q :=
  Finset.sum_congr rfl fun k _ => congrArg₂ (· * ·) (hx p k) (hw k q)

/-- `max (x + b) z` of a block whose rows are rows `R p` of `X` is that of `X` at those rows. -/
theorem biasReluAt_rows {n N B : ℕ} (z : EReal) (x0 : (⟨2, ![n, B]⟩ : Shape).Idx → EReal) (X : (⟨2, ![N, B]⟩ : Shape).Idx → EReal)
    (b b' : (⟨2, ![1, B]⟩ : Shape).Idx → EReal) (R : Fin n → Fin N)
    (hx : ∀ (p : Fin n) (c : Fin B), x0 (ix2 p c) = X (ix2 (R p) c)) (hb : ∀ c : Fin B, b (ix2 (0 : Fin 1) c) = b' (ix2 (0 : Fin 1) c))
    (p : Fin n) (q : Fin B) : biasReluAt z x0 b p q = biasReluAt z X b' (R p) q :=
  congrArg (max · z) (congrArg₂ (· + ·) (hx p q) (hb q))

/-- The biased row p of a block is the biased row `R p` of `X`. -/
theorem biasedRow_rows {n N B : ℕ} (x0 : (⟨2, ![n, B]⟩ : Shape).Idx → EReal) (X : (⟨2, ![N, B]⟩ : Shape).Idx → EReal)
    (b b' : (⟨2, ![1, B]⟩ : Shape).Idx → EReal) (R : Fin n → Fin N)
    (hx : ∀ (p : Fin n) (c : Fin B), x0 (ix2 p c) = X (ix2 (R p) c)) (hb : ∀ c : Fin B, b (ix2 (0 : Fin 1) c) = b' (ix2 (0 : Fin 1) c))
    (p : Fin n) : biasedRow x0 b p = biasedRow X b' (R p) :=
  funext fun c => congrArg₂ (· + ·) (hx p c) (hb c)

/-- The rows' log-softmax of a block whose rows are rows `R p` of `X` is that of `X` at those rows. -/
theorem logSoftmaxAt_rows {n N B : ℕ} (m : EReal) (x0 : (⟨2, ![n, B]⟩ : Shape).Idx → EReal) (X : (⟨2, ![N, B]⟩ : Shape).Idx → EReal)
    (b b' : (⟨2, ![1, B]⟩ : Shape).Idx → EReal) (R : Fin n → Fin N)
    (hx : ∀ (p : Fin n) (c : Fin B), x0 (ix2 p c) = X (ix2 (R p) c)) (hb : ∀ c : Fin B, b (ix2 (0 : Fin 1) c) = b' (ix2 (0 : Fin 1) c))
    (p : Fin n) (q : Fin B) : logSoftmaxAt m x0 b p q = logSoftmaxAt m X b' (R p) q :=
  congrArg (fun v => rowLogSoftmax m v q) (biasedRow_rows x0 X b b' R hx hb p)

/-- The maximum with the fold's starting value changes nothing: the fold of max from `n` is at least `n`. -/
theorem max_fold_max {B : ℕ} (n : EReal) (v : Fin B → EReal) :
    max n ((Finset.univ : Finset (Fin B)).fold max n v) = (Finset.univ : Finset (Fin B)).fold max n v :=
  max_eq_right (by rw [Finset.le_fold_max]; exact Or.inl le_rfl)

end Cert.Gcn

end
-- ==== Proof.Stages.lean ====
/-
  The host-side stages of the graph convolution, each as one function of the arrays it reads.

  From the edge list `e` ([2, 3200000] node numbers): `srcOf e` and `dstOf e` are its two rows with the 100000 self
  loops `0 … 99999` appended; `wrapCol s` turns a negative node number `v` into `v + 100000` and lays the numbers out as a
  column; `degOf d` counts, per node, the edges that end there; `dinvOf d` is `deg^(-1/2)` where the degree is positive
  and zero elsewhere; `normOf s d` is, per edge, `dinv(src) · dinv(dst)`. An aggregation `agg16 h s d nrm` (and `agg10`,
  the same at ten columns) gathers row `src` of `h` for every edge, scales it by the edge's `nrm`, and adds it into row
  `dst` of a zero array. `biasRow16 b` / `biasRow10 b` lay a bias vector out as one row.
-/
import proofs.«122187_j73521250173346_1_alg».proof.KernelIdeal
import proofs.«122187_j73521250173346_1_alg».proof.Proof.Gen.KernelIdeal

noncomputable section

namespace Cert.KernelIdeal.Stages

open Idealize.ShloMosaic Cert.KernelIdeal
open Cert.KernelIdeal.Facts₀ Cert.KernelIdeal.Facts

variable {F : FTy → Type} [FloatOps F]

/-- The edges' source nodes, the self loops appended. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' target nodes, the self loops appended. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers with a negative one wrapped around (`v + 100000`), as a column. -/
def wrapCol (s : (⟨S3300000, .i32⟩ : BufTy).Contents (Elt F)) : (⟨S3300000x1, .i32⟩ : BufTy).Contents (Elt F) :=
  broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- Per node, the number of edges ending there (ones added into a zero array at the target nodes). -/
def degOf (d : (⟨S3300000, .i32⟩ : BufTy).Contents (Elt F)) : (⟨S100000, .f32⟩ : BufTy).Contents (Elt F) :=
  Host.scatterAdd (F := F) scatter_S100000_S3300000x1_S3300000_n_0_0_1 (broadcastInDim S100000 ![] bcast_S_S100000 (constant (F := F) S_ .f32 0x00000000#32)) (broadcastInDim S3300000x1 ![0] bcast_S3300000_S3300000x1_0 d) (broadcastInDim S3300000 ![] bcast_S_S3300000 (constant (F := F) S_ .f32 0x3F800000#32))

/-- `deg^(-1/2)` where the degree is positive, zero elsewhere. -/
def dinvOf (d : (⟨S3300000, .i32⟩ : BufTy).Contents (Elt F)) : (⟨S100000, .f32⟩ : BufTy).Contents (Elt F) :=
  select (cmpf (F := F) .ogt (degOf (F := F) d) (broadcastInDim S100000 ![] bcast_S_S100000 (constant (F := F) S_ .f32 0x00000000#32))) (Host.rsqrt (F := F) (degOf (F := F) d)) (broadcastInDim S100000 ![] bcast_S_S100000 (id (constant (F := F) S_ .f32 0x00000000#32)))

/-- Per edge, `dinv(src) · dinv(dst)`. -/
def normOf (s d : (⟨S3300000, .i32⟩ : BufTy).Contents (Elt F)) : (⟨S3300000, .f32⟩ : BufTy).Contents (Elt F) :=
  mulf (F := F) (Host.gather gather_S100000_S3300000x1_S3300000_n_0_n_n_0_1_1 (dinvOf (F := F) d) (wrapCol (F := F) s)) (Host.gather gather_S100000_S3300000x1_S3300000_n_0_n_n_0_1_1 (dinvOf (F := F) d) (wrapCol (F := F) d))

/-- Row `src` of `h` per edge, scaled by the edge's `nrm`, added into row `dst` of a zero array (16 columns). -/
def agg16 (h : (⟨S100000x16, .f32⟩ : BufTy).Contents (Elt F)) (s d : (⟨S3300000, .i32⟩ : BufTy).Contents (Elt F)) (nrm : (⟨S3300000, .f32⟩ : BufTy).Contents (Elt F)) : (⟨S100000x16, .f32⟩ : BufTy).Contents (Elt F) :=
  Host.scatterAdd (F := F) scatter_S100000x16_S3300000x1_S3300000x16_1_0_0_1 (broadcastInDim S100000x16 ![] bcast_S_S100000x16 (constant (F := F) S_ .f32 0x00000000#32)) (broadcastInDim S3300000x1 ![0] bcast_S3300000_S3300000x1_0 d) (mulf (F := F) (Host.gather gather_S100000x16_S3300000x1_S3300000x16_1_0_n_n_0_1_116 h (wrapCol (F := F) s)) (broadcastInDim S3300000x16 ![0, 1] bcast_S3300000x1_S3300000x16_0_1 (broadcastInDim S3300000x1 ![0] bcast_S3300000_S3300000x1_0 nrm)))

/-- Row `src` of `h` per edge, scaled by the edge's `nrm`, added into row `dst` of a zero array (10 columns). -/
def agg10 (h : (⟨S100000x10, .f32⟩ : BufTy).Contents (Elt F)) (s d : (⟨S3300000, .i32⟩ : BufTy).Contents (Elt F)) (nrm : (⟨S3300000, .f32⟩ : BufTy).Contents (Elt F)) : (⟨S100000x10, .f32⟩ : BufTy).Contents (Elt F) :=
  Host.scatterAdd (F := F) scatter_S100000x10_S3300000x1_S3300000x10_1_0_0_1 (broadcastInDim S100000x10 ![] bcast_S_S100000x10 (constant (F := F) S_ .f32 0x00000000#32)) (broadcastInDim S3300000x1 ![0] bcast_S3300000_S3300000x1_0 d) (mulf (F := F) (Host.gather gather_S100000x10_S3300000x1_S3300000x10_1_0_n_n_0_1_110 h (wrapCol (F := F) s)) (broadcastInDim S3300000x10 ![0, 1] bcast_S3300000x1_S3300000x10_0_1 (broadcastInDim S3300000x1 ![0] bcast_S3300000_S3300000x1_0 nrm)))

/-- A bias vector of 16 entries laid out as one row. -/
def biasRow16 (b : (⟨S16, .f32⟩ : BufTy).Contents (Elt F)) : (⟨S1x16, .f32⟩ : BufTy).Contents (Elt F) := shapeCast _ b shapeCasts_S16_S1x16

/-- A bias vector of 10 entries laid out as one row. -/
def biasRow10 (b : (⟨S10, .f32⟩ : BufTy).Contents (Elt F)) : (⟨S1x10, .f32⟩ : BufTy).Contents (Elt F) := shapeCast _ b shapeCasts_S10_S1x10

end Cert.KernelIdeal.Stages

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.RegionMatmul1.lean ====
/-
  The first matmul region, read as a whole-array function.

  The region walks ten blocks of 10000 rows. At block `t` its body multiplies the block's rows by the whole weight
  matrix (a matrix unit's product into a zero accumulator, the operands' change of float format the identity on the
  extended reals); what it writes back is block `t` of `matProd X W`, where `X` is the [100000, 132] array and `W` the
  [132, 16] weights as the region finds them. The ten blocks tile the output array, so after the region the output
  array is `matProd X W`.
-/
import proofs.«122187_j73521250173346_1_alg».proof.Proof.Gen.KernelIdeal.Frame
import proofs.«122187_j73521250173346_1_alg».proof.Proof.Spec
import proofs.«122187_j73521250173346_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul1

open Cert.KernelIdeal Cert.KernelIdeal.Gen Cert.Gcn

theorem hz : (![0, 0] : Fin 2 → Nat) = fun _ => 0 := funext fun a => by fin_cases a <;> rfl

/-- The product's left index takes the output row … -/
theorem lhs_row (i : S10000x16.Idx) (q : dot_S10000x132_S132x16_S10000x16_1_0_0_1_n_n.contr.Idx) : (dot_S10000x132_S132x16_S10000x16_1_0_0_1_n_n.lhsIdx i q 0).val = (i 0).val := by
  unfold DotDims.lhsIdx
  rw [dif_neg (show ¬(0 : Fin S10000x132.rank) ∈ dot_S10000x132_S132x16_S10000x16_1_0_0_1_n_n.lhsBatch by decide), dif_pos (show (0 : Fin S10000x132.rank) ∈ dot_S10000x132_S132x16_S10000x16_1_0_0_1_n_n.lhsNonContracting by decide)]
  rfl
/-- … and the contraction position; -/
theorem lhs_contr (i : S10000x16.Idx) (q : dot_S10000x132_S132x16_S10000x16_1_0_0_1_n_n.contr.Idx) : (dot_S10000x132_S132x16_S10000x16_1_0_0_1_n_n.lhsIdx i q 1).val = (q ⟨0, by decide⟩).val :=
  dot_S10000x132_S132x16_S10000x16_1_0_0_1_n_n.lhsIdx_val_of_single rfl i q
/-- the right index takes the contraction position … -/
theorem rhs_contr (i : S10000x16.Idx) (q : dot_S10000x132_S132x16_S10000x16_1_0_0_1_n_n.contr.Idx) : (dot_S10000x132_S132x16_S10000x16_1_0_0_1_n_n.rhsIdx i q 0).val = (q ⟨0, by decide⟩).val :=
  dot_S10000x132_S132x16_S10000x16_1_0_0_1_n_n.rhsIdx_val_of_single rfl i q
/-- … and the output column. -/
theorem rhs_col (i : S10000x16.Idx) (q : dot_S10000x132_S132x16_S10000x16_1_0_0_1_n_n.contr.Idx) : (dot_S10000x132_S132x16_S10000x16_1_0_0_1_n_n.rhsIdx i q 1).val = (i 1).val := by
  unfold DotDims.rhsIdx
  rw [dif_neg (show ¬(1 : Fin S132x16.rank) ∈ dot_S10000x132_S132x16_S10000x16_1_0_0_1_n_n.rhsBatch by decide), dif_pos (show (1 : Fin S132x16.rank) ∈ dot_S10000x132_S132x16_S10000x16_1_0_0_1_n_n.rhsNonContracting by decide)]
  rfl

/-- The body's stored value at (p, q): row p of the block times column q of the weights. -/
theorem pay_apply (x0 : Vec Ideal S10000x132 .f32) (x1 : Vec Ideal S132x16 .f32) (p : Fin 10000) (q : Fin 16) :
    k0_pay1 x0 x1 (ix2 p q) = matProdAt x0 x1 p q := by
  unfold k0_pay1
  exact Cert.DenseLayer.matmul_rows_cols dot_S10000x132_S132x16_S10000x16_1_0_0_1_n_n rfl rfl lhs_row lhs_contr rhs_contr rhs_col none
    (truncf .bf16 x0 bitsLt_bf16_f32) (truncf .bf16 x1 bitsLt_bf16_f32) p q

/-- The body's stored value on a block whose rows are rows `T·10000 + p` of `A`, at an index `j` of the block, is
    `matProd A B` at the array index `i` with the same column and row `T·10000 + j₀`. -/
theorem pay_block (A : S100000x132.Idx → EReal) (B : S132x16.Idx → EReal) (x0 : Vec Ideal S10000x132 .f32) (x1 : Vec Ideal S132x16 .f32)
    (T : ℕ) (hT : T < 10)
    (h0 : ∀ (p : Fin 10000) (k : Fin 132), x0 (ix2 p k) = A (ix2 (⟨T * 10000 + p.val, by omega⟩ : Fin 100000) k))
    (h1 : ∀ (k : Fin 132) (q : Fin 16), x1 (ix2 k q) = B (ix2 k q))
    (j : S10000x16.Idx) (i : S100000x16.Idx) (hi0 : (i 0).val = T * 10000 + (j 0).val) (hi1 : (i 1).val = (j 1).val) :
    k0_pay1 x0 x1 j = matProd A B i := by
  obtain ⟨p, q, rfl⟩ : ∃ (p : Fin 10000) (q : Fin 16), j = ix2 p q := ⟨j 0, j 1, eq_ix2 j⟩
  obtain ⟨P, Q, rfl⟩ : ∃ (P : Fin 100000) (Q : Fin 16), i = ix2 P Q := ⟨i 0, i 1, eq_ix2 i⟩
  have hlt : T * 10000 + p.val < 100000 := by have hp := p.isLt; clear hi0 hi1; omega
  obtain rfl : P = ⟨T * 10000 + p.val, hlt⟩ := Fin.ext hi0
  obtain rfl : q = Q := Fin.ext hi1.symm
  exact (pay_apply x0 x1 p q).trans
    (matProdAt_rows x0 A x1 B (fun p => ⟨T * 10000 + p.val, by omega⟩) h0 h1 p q)

variable (V : (c : Dev nD) → (b : Ref sig .tc) → Buf (Elt Ideal) ((c : Thread nD τ).loc b))

/-- The printed index maps over the grid: block `t` of the input and of the output is row block `t`, the weights
    stay where they are, and there are ten points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is block `t` of `matProd X W`. -/
theorem flushed_eq (c : Dev nD) (t : Fin cfg0.N) :
    (dat0 V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x132) hz, View.ld_unit_zero (S := S132x16) hz]
  obtain ⟨e0, e1, e2, e3, e4, e5, e6⟩ := idx_facts t
  funext j
  show k0_pay1 (iblk0 V c 0 t) (iblk0 V c 1 t) j = matProd (V c main_arg0) (V c main_arg2) (((cfg0.win 2).blk t).view.emb j)
  refine pay_block (V c main_arg0) (V c main_arg2) (iblk0 V c 0 t) (iblk0 V c 1 t) t.val e6 (fun p k => ?_) (fun k q => ?_) j _ ?_ ?_
  · show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = t.val * 10000 + p.val; rw [e0]; omega
    | ⟨1, _⟩ => show win0_0.index t (1 : Fin 2) * 132 + 1 * k.val = k.val; rw [e1]; omega
  · show V c main_arg2 (((cfg0.win 1).blk t).view.emb (ix2 k q)) = _
    refine congrArg (V c main_arg2) (funext fun a => Fin.ext ?_)
    match a with
    | ⟨0, _⟩ => show win0_1.index t (0 : Fin 2) * 132 + 1 * k.val = k.val; rw [e2]; omega
    | ⟨1, _⟩ => show win0_1.index t (1 : Fin 2) * 16 + 1 * q.val = q.val; rw [e3]; omega
  · show win0_2.index t (0 : Fin 2) * 10000 + 1 * (j 0).val = t.val * 10000 + (j 0).val; rw [e4]; omega
  · show win0_2.index t (1 : Fin 2) * 16 + 1 * (j 1).val = (j 1).val; rw [e5]; omega

/-- An index of the array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- The ten blocks tile the output array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- After the region its output array is `matProd X W` of the two arrays it read. -/
theorem final (c : Dev nD) :
    (dat0 V c).arrAt 2 cfg0.N = matProd (V c main_arg0) (V c main_arg2) :=
  (dat0 V c).arrAt_eq_of_cover 2 _ (fun t _ => flushed_eq V c t) (cover)

end Cert.KernelIdeal.Matmul1

end
-- ==== Proof.RegionRelu.lean ====
/-
  The bias-and-relu region, read as a whole-array function.

  The region walks ten blocks of 10000 rows. At block `t` its body adds the one bias row to every row of the block and
  takes the maximum with zero; what it writes back is block `t` of `biasRelu 0 A b`, where `A` is the [100000, 16]
  array and `b` the [1, 16] bias row as the region finds them. The ten blocks tile the output array, so after the
  region the output array is `biasRelu 0 A b`.
-/
import proofs.«122187_j73521250173346_1_alg».proof.Proof.Gen.KernelIdeal.Frame
import proofs.«122187_j73521250173346_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Relu

open Cert.KernelIdeal Cert.KernelIdeal.Gen Cert.Gcn

theorem hz : (![0, 0] : Fin 2 → Nat) = fun _ => 0 := funext fun a => by fin_cases a <;> rfl

/-- The zero the maximum is taken with. -/
abbrev z0 : EReal := Ideal.ofBits .f32 0x00000000#32

/-- The body's stored value at (p, q): the block's entry plus the bias row's entry q, against zero. -/
theorem pay_apply (x0 : Vec Ideal S10000x16 .f32) (x1 : Vec Ideal S1x16 .f32) (p : Fin 10000) (q : Fin 16) :
    k1_pay1 x0 x1 (ix2 p q) = biasReluAt z0 x0 x1 p q := by
  unfold k1_pay1
  exact congrArg (max · z0) (congrArg₂ (· + ·)
    (congrFun (shapeCast_self x0 shapeCasts_S10000x16_S10000x16) (ix2 p q))
    ((broadcastTo_1b_ab_apply (shapeCast S1x16 x1 shapeCasts_S1x16_S1x16) broadcasts_S1x16_S10000x16 p q).trans
      (congrFun (shapeCast_self x1 shapeCasts_S1x16_S1x16) (ix2 (0 : Fin 1) q))))

/-- The body's stored value on a block whose rows are rows `T·10000 + p` of `A`, at an index `j` of the block, is
    `biasRelu 0 A B` at the array index `i` with the same column and row `T·10000 + j₀`. -/
theorem pay_block (A : S100000x16.Idx → EReal) (B : S1x16.Idx → EReal) (x0 : Vec Ideal S10000x16 .f32) (x1 : Vec Ideal S1x16 .f32)
    (T : ℕ) (hT : T < 10)
    (h0 : ∀ (p : Fin 10000) (k : Fin 16), x0 (ix2 p k) = A (ix2 (⟨T * 10000 + p.val, by omega⟩ : Fin 100000) k))
    (h1 : ∀ k : Fin 16, x1 (ix2 (0 : Fin 1) k) = B (ix2 (0 : Fin 1) k))
    (j : S10000x16.Idx) (i : S100000x16.Idx) (hi0 : (i 0).val = T * 10000 + (j 0).val) (hi1 : (i 1).val = (j 1).val) :
    k1_pay1 x0 x1 j = biasRelu z0 A B i := by
  obtain ⟨p, q, rfl⟩ : ∃ (p : Fin 10000) (q : Fin 16), j = ix2 p q := ⟨j 0, j 1, eq_ix2 j⟩
  obtain ⟨P, Q, rfl⟩ : ∃ (P : Fin 100000) (Q : Fin 16), i = ix2 P Q := ⟨i 0, i 1, eq_ix2 i⟩
  have hlt : T * 10000 + p.val < 100000 := by have hp := p.isLt; clear hi0 hi1; omega
  obtain rfl : P = ⟨T * 10000 + p.val, hlt⟩ := Fin.ext hi0
  obtain rfl : q = Q := Fin.ext hi1.symm
  exact (pay_apply x0 x1 p q).trans
    (biasReluAt_rows z0 x0 A x1 B (fun p => ⟨T * 10000 + p.val, by omega⟩) h0 h1 p q)

variable (V : (c : Dev nD) → (b : Ref sig .tc) → Buf (Elt Ideal) ((c : Thread nD τ).loc b))

/-- The printed index maps over the grid: block `t` of the input and of the output is row block `t`, the bias row
    stays where it is, and there are ten points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point `t` writes back is block `t` of `biasRelu 0 A b`. -/
theorem flushed_eq (c : Dev nD) (t : Fin cfg1.N) :
    (dat1 V c).flushed 2 t
      = ((cfg1.win 2).blk t).view.read (Elt Ideal) (biasRelu z0 (V c main_v43) (V c main_v44)) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨e0, e1, e2, e3, e4, e5, e6⟩ := idx_facts t
  funext j
  show k1_pay1 (iblk1 V c 0 t) (iblk1 V c 1 t) j = biasRelu z0 (V c main_v43) (V c main_v44) (((cfg1.win 2).blk t).view.emb j)
  refine pay_block (V c main_v43) (V c main_v44) (iblk1 V c 0 t) (iblk1 V c 1 t) t.val e6 (fun p k => ?_) (fun k => ?_) j _ ?_ ?_
  · show V c main_v43 (((cfg1.win 0).blk t).view.emb (ix2 p k)) = _
    refine congrArg (V c main_v43) (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 16 + 1 * k.val = k.val; rw [e1]; omega
  · show V c main_v44 (((cfg1.win 1).blk t).view.emb (ix2 (0 : Fin 1) k)) = _
    refine congrArg (V c main_v44) (funext fun a => Fin.ext ?_)
    match a with
    | ⟨0, _⟩ => show win1_1.index t (0 : Fin 2) * 1 + 1 * 0 = 0; rw [e2]
    | ⟨1, _⟩ => show win1_1.index t (1 : Fin 2) * 16 + 1 * k.val = k.val; rw [e3]; omega
  · show win1_2.index t (0 : Fin 2) * 10000 + 1 * (j 0).val = t.val * 10000 + (j 0).val; rw [e4]; omega
  · show win1_2.index t (1 : Fin 2) * 16 + 1 * (j 1).val = (j 1).val; rw [e5]; omega

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v45).slice (win1_2.rect t)).set ↔ _
  rw [View.set_slice_whole, Rect.mem_set_unit]
  exact Iff.rfl

/-- Every row block is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- The ten blocks tile the output array. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the region its output array is `biasRelu 0 A b` of the two arrays it read. -/
theorem final (c : Dev nD) :
    (dat1 V c).arrAt 2 cfg1.N = biasRelu z0 (V c main_v43) (V c main_v44) :=
  (dat1 V c).arrAt_eq_of_cover 2 _ (fun t _ => flushed_eq V c t) (cover)

end Cert.KernelIdeal.Relu

end
-- ==== Proof.RegionMatmul2.lean ====
/-
  The second matmul region, read as a whole-array function.

  The region walks ten blocks of 10000 rows. At block `t` its body multiplies the block's rows by the whole weight
  matrix (a matrix unit's product into a zero accumulator, the operands' change of float format the identity on the
  extended reals); what it writes back is block `t` of `matProd X W`, where `X` is the [100000, 16] array and `W` the
  [16, 10] weights as the region finds them. The ten blocks tile the output array, so after the region the output
  array is `matProd X W`.
-/
import proofs.«122187_j73521250173346_1_alg».proof.Proof.Gen.KernelIdeal.Frame
import proofs.«122187_j73521250173346_1_alg».proof.Proof.Spec
import proofs.«122187_j73521250173346_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Matmul2

open Cert.KernelIdeal Cert.KernelIdeal.Gen Cert.Gcn

theorem hz : (![0, 0] : Fin 2 → Nat) = fun _ => 0 := funext fun a => by fin_cases a <;> rfl

/-- The product's left index takes the output row … -/
theorem lhs_row (i : S10000x10.Idx) (q : dot_S10000x16_S16x10_S10000x10_1_0_0_1_n_n.contr.Idx) : (dot_S10000x16_S16x10_S10000x10_1_0_0_1_n_n.lhsIdx i q 0).val = (i 0).val := by
  unfold DotDims.lhsIdx
  rw [dif_neg (show ¬(0 : Fin S10000x16.rank) ∈ dot_S10000x16_S16x10_S10000x10_1_0_0_1_n_n.lhsBatch by decide), dif_pos (show (0 : Fin S10000x16.rank) ∈ dot_S10000x16_S16x10_S10000x10_1_0_0_1_n_n.lhsNonContracting by decide)]
  rfl
/-- … and the contraction position; -/
theorem lhs_contr (i : S10000x10.Idx) (q : dot_S10000x16_S16x10_S10000x10_1_0_0_1_n_n.contr.Idx) : (dot_S10000x16_S16x10_S10000x10_1_0_0_1_n_n.lhsIdx i q 1).val = (q ⟨0, by decide⟩).val :=
  dot_S10000x16_S16x10_S10000x10_1_0_0_1_n_n.lhsIdx_val_of_single rfl i q
/-- the right index takes the contraction position … -/
theorem rhs_contr (i : S10000x10.Idx) (q : dot_S10000x16_S16x10_S10000x10_1_0_0_1_n_n.contr.Idx) : (dot_S10000x16_S16x10_S10000x10_1_0_0_1_n_n.rhsIdx i q 0).val = (q ⟨0, by decide⟩).val :=
  dot_S10000x16_S16x10_S10000x10_1_0_0_1_n_n.rhsIdx_val_of_single rfl i q
/-- … and the output column. -/
theorem rhs_col (i : S10000x10.Idx) (q : dot_S10000x16_S16x10_S10000x10_1_0_0_1_n_n.contr.Idx) : (dot_S10000x16_S16x10_S10000x10_1_0_0_1_n_n.rhsIdx i q 1).val = (i 1).val := by
  unfold DotDims.rhsIdx
  rw [dif_neg (show ¬(1 : Fin S16x10.rank) ∈ dot_S10000x16_S16x10_S10000x10_1_0_0_1_n_n.rhsBatch by decide), dif_pos (show (1 : Fin S16x10.rank) ∈ dot_S10000x16_S16x10_S10000x10_1_0_0_1_n_n.rhsNonContracting by decide)]
  rfl

/-- The body's stored value at (p, q): row p of the block times column q of the weights. -/
theorem pay_apply (x0 : Vec Ideal S10000x16 .f32) (x1 : Vec Ideal S16x10 .f32) (p : Fin 10000) (q : Fin 10) :
    k2_pay1 x0 x1 (ix2 p q) = matProdAt x0 x1 p q := by
  unfold k2_pay1
  refine (Cert.DenseLayer.matmul_rows_cols dot_S10000x16_S16x10_S10000x10_1_0_0_1_n_n rfl rfl lhs_row lhs_contr rhs_contr rhs_col none
    (truncf .bf16 (shapeCast S10000x16 x0 shapeCasts_S10000x16_S10000x16) bitsLt_bf16_f32) (truncf .bf16 x1 bitsLt_bf16_f32) p q).trans ?_
  exact Finset.sum_congr rfl fun k _ => congrArg (· * x1 (ix2 k q)) (congrFun (shapeCast_self x0 shapeCasts_S10000x16_S10000x16) (ix2 p k))

/-- The body's stored value on a block whose rows are rows `T·10000 + p` of `A`, at an index `j` of the block, is
    `matProd A B` at the array index `i` with the same column and row `T·10000 + j₀`. -/
theorem pay_block (A : S100000x16.Idx → EReal) (B : S16x10.Idx → EReal) (x0 : Vec Ideal S10000x16 .f32) (x1 : Vec Ideal S16x10 .f32)
    (T : ℕ) (hT : T < 10)
    (h0 : ∀ (p : Fin 10000) (k : Fin 16), x0 (ix2 p k) = A (ix2 (⟨T * 10000 + p.val, by omega⟩ : Fin 100000) k))
    (h1 : ∀ (k : Fin 16) (q : Fin 10), x1 (ix2 k q) = B (ix2 k q))
    (j : S10000x10.Idx) (i : S100000x10.Idx) (hi0 : (i 0).val = T * 10000 + (j 0).val) (hi1 : (i 1).val = (j 1).val) :
    k2_pay1 x0 x1 j = matProd A B i := by
  obtain ⟨p, q, rfl⟩ : ∃ (p : Fin 10000) (q : Fin 10), j = ix2 p q := ⟨j 0, j 1, eq_ix2 j⟩
  obtain ⟨P, Q, rfl⟩ : ∃ (P : Fin 100000) (Q : Fin 10), i = ix2 P Q := ⟨i 0, i 1, eq_ix2 i⟩
  have hlt : T * 10000 + p.val < 100000 := by have hp := p.isLt; clear hi0 hi1; omega
  obtain rfl : P = ⟨T * 10000 + p.val, hlt⟩ := Fin.ext hi0
  obtain rfl : q = Q := Fin.ext hi1.symm
  exact (pay_apply x0 x1 p q).trans
    (matProdAt_rows x0 A x1 B (fun p => ⟨T * 10000 + p.val, by omega⟩) h0 h1 p q)

variable (V : (c : Dev nD) → (b : Ref sig .tc) → Buf (Elt Ideal) ((c : Thread nD τ).loc b))

/-- The printed index maps over the grid: block `t` of the input and of the output is row block `t`, the weights
    stay where they are, and there are ten points. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point `t` writes back is block `t` of `matProd X W`. -/
theorem flushed_eq (c : Dev nD) (t : Fin cfg2.N) :
    (dat2 V c).flushed 2 t
      = ((cfg2.win 2).blk t).view.read (Elt Ideal) (matProd (V c main_v45) (V c main_arg4)) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x10) hz]
  obtain ⟨e0, e1, e2, e3, e4, e5, e6⟩ := idx_facts t
  funext j
  show k2_pay1 (iblk2 V c 0 t) (iblk2 V c 1 t) j = matProd (V c main_v45) (V c main_arg4) (((cfg2.win 2).blk t).view.emb j)
  refine pay_block (V c main_v45) (V c main_arg4) (iblk2 V c 0 t) (iblk2 V c 1 t) t.val e6 (fun p k => ?_) (fun k q => ?_) j _ ?_ ?_
  · show V c main_v45 (((cfg2.win 0).blk t).view.emb (ix2 p k)) = _
    refine congrArg (V c main_v45) (funext fun a => Fin.ext ?_)
    match a with
    | ⟨0, _⟩ => show win2_0.index t (0 : Fin 2) * 10000 + 1 * p.val = t.val * 10000 + p.val; rw [e0]; omega
    | ⟨1, _⟩ => show win2_0.index t (1 : Fin 2) * 16 + 1 * k.val = k.val; rw [e1]; omega
  · show V c main_arg4 (((cfg2.win 1).blk t).view.emb (ix2 k q)) = _
    refine congrArg (V c main_arg4) (funext fun a => Fin.ext ?_)
    match a with
    | ⟨0, _⟩ => show win2_1.index t (0 : Fin 2) * 16 + 1 * k.val = k.val; rw [e2]; omega
    | ⟨1, _⟩ => show win2_1.index t (1 : Fin 2) * 10 + 1 * q.val = q.val; rw [e3]; omega
  · show win2_2.index t (0 : Fin 2) * 10000 + 1 * (j 0).val = t.val * 10000 + (j 0).val; rw [e4]; omega
  · show win2_2.index t (1 : Fin 2) * 10 + 1 * (j 1).val = (j 1).val; rw [e5]; omega

/-- An index of the array is in point `t`'s block iff each coordinate is in the block's range on its axis. -/
theorem mem_blk (t : Fin cfg2.N) (i : S100000x10.Idx) :
    i ∈ ((cfg2.win 2).blk t).view.set ↔ ∀ a : Fin 2, win2_2.index t a * S10000x10.size a ≤ (i a).val ∧ (i a).val < win2_2.index t a * S10000x10.size a + S10000x10.size a := by
  show i ∈ ((View.whole main_v46).slice (win2_2.rect t)).set ↔ _
  rw [View.set_slice_whole, Rect.mem_set_unit]
  exact Iff.rfl

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- The ten blocks tile the output array. -/
theorem cover (i : S100000x10.Idx) : ∃ t : Fin cfg2.N, (cfg2.win 2).flush t = true ∧ i ∈ ((cfg2.win 2).blk t).view.set := by
  have hi0 : (i 0).val < 100000 := (i 0).isLt
  have hi1 : (i 1).val < 10 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 10 ≤ (i 1).val ∧ (i 1).val < win2_2.index t (1 : Fin 2) * 10 + 10; omega

/-- After the region its output array is `matProd X W` of the two arrays it read. -/
theorem final (c : Dev nD) :
    (dat2 V c).arrAt 2 cfg2.N = matProd (V c main_v45) (V c main_arg4) :=
  (dat2 V c).arrAt_eq_of_cover 2 _ (fun t _ => flushed_eq V c t) (cover)

end Cert.KernelIdeal.Matmul2

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«122187_j73521250173346_1_alg».proof.Proof.LibKeepdims
import proofs.«122187_j73521250173346_1_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.RegionLogSoftmax.lean ====
/-
  The bias-and-log-softmax region, read as a whole-array function.

  The region walks ten blocks of 10000 rows. At block `t` its body adds the one bias row to every row of the block,
  takes each row's maximum (from −∞), subtracts it, and subtracts the logarithm of the row's sum of exponentials; what
  it writes back is block `t` of `logSoftmax (−∞) A b`, where `A` is the [100000, 10] array and `b` the [1, 10] bias row
  as the region finds them. The ten blocks tile the output array, so after the region the output array is
  `logSoftmax (−∞) A b`.
-/
import proofs.«122187_j73521250173346_1_alg».proof.Proof.Gen.KernelIdeal.Frame
import proofs.«122187_j73521250173346_1_alg».proof.Proof.Spec
import proofs.«122187_j73521250173346_1_alg».proof.Proof.LibKeepdims
import proofs.«122187_j73521250173346_1_alg».proof.Proof.LibRowReduce
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LogSoftmax

open Cert.KernelIdeal Cert.KernelIdeal.Gen Cert.Gcn

theorem hz : (![0, 0] : Fin 2 → Nat) = fun _ => 0 := funext fun a => by fin_cases a <;> rfl

/-- The value the row maximum is folded from (the word of −∞). -/
abbrev ninf : EReal := Ideal.ofBits .f32 0xFF800000#32

/-- The block with the bias row added to every row. -/
def biased (x0 : Vec Ideal S10000x10 .f32) (x1 : Vec Ideal S1x10 .f32) : FVec Ideal S10000x10 .f32 :=
  addf (shapeCast S10000x10 x0 shapeCasts_S10000x10_S10000x10)
    (broadcastTo S10000x10 (shapeCast S1x10 x1 shapeCasts_S1x10_S1x10) broadcasts_S1x10_S10000x10)

/-- The rows' maxima, from −∞. -/
def rowMaxV (v : FVec Ideal S10000x10 .f32) : FVec Ideal S10000 .f32 :=
  multiReduction .maximumf [1] S10000 v 0xFF800000#32 reduces_S10000x10_S10000 (.inl rfl) rfl

/-- The rows' sums, from zero. -/
def rowSumV (v : FVec Ideal S10000x10 .f32) : FVec Ideal S10000 .f32 :=
  multiReduction .add [1] S10000 v 0x00000000#32 reduces_S10000x10_S10000 (.inl rfl) rfl

/-- A per-row value kept as a column and spread back over the row. -/
def keep (v : FVec Ideal S10000 .f32) : FVec Ideal S10000x10 .f32 :=
  broadcastTo S10000x10 (shapeCast S10000x1 v shapeCasts_S10000_S10000x1) broadcasts_S10000x1_S10000x10

/-- The body's stored value, with its repeated parts named. -/
theorem pay_shape (x0 : Vec Ideal S10000x10 .f32) (x1 : Vec Ideal S1x10 .f32) :
    k3_pay1 x0 x1 = subf (subf (biased x0 x1) (keep (rowMaxV (biased x0 x1))))
      (broadcastTo S10000x10 (log (shapeCast S10000x1 (rowSumV (exp (subf (biased x0 x1) (keep (rowMaxV (biased x0 x1))))))
        shapeCasts_S10000_S10000x1)) broadcasts_S10000x1_S10000x10) := rfl

/-- The biased block at (p, c) is the biased row p at c. -/
theorem biased_apply (x0 : Vec Ideal S10000x10 .f32) (x1 : Vec Ideal S1x10 .f32) (p : Fin 10000) (c : Fin 10) :
    biased x0 x1 (ix2 p c) = biasedRow x0 x1 p c :=
  congrArg₂ (· + ·) (congrFun (shapeCast_self x0 shapeCasts_S10000x10_S10000x10) (ix2 p c))
    ((broadcastTo_1b_ab_apply (shapeCast S1x10 x1 shapeCasts_S1x10_S1x10) broadcasts_S1x10_S10000x10 p c).trans
      (congrFun (shapeCast_self x1 shapeCasts_S1x10_S1x10) (ix2 (0 : Fin 1) c)))

/-- The body's stored value at (p, q): the log-softmax of the biased row p, at q. -/
theorem pay_apply (x0 : Vec Ideal S10000x10 .f32) (x1 : Vec Ideal S1x10 .f32) (p : Fin 10000) (q : Fin 10) :
    k3_pay1 x0 x1 (ix2 p q) = logSoftmaxAt ninf x0 x1 p q := by
  rw [pay_shape]
  -- the row maximum, spread back over the row
  have hM : rowMaxV (biased x0 x1) (ix1 p) = (Finset.univ : Finset (Fin 10)).fold max ninf (biasedRow x0 x1 p) :=
    (Cert.RowReduce.rowMax_apply (biased x0 x1) 0xFF800000#32 reduces_S10000x10_S10000 (.inl rfl) rfl p).trans
      (congrArg (fun f => (Finset.univ : Finset (Fin 10)).fold max ninf f) (funext fun c => biased_apply x0 x1 p c))
  have hK : ∀ c : Fin 10, keep (rowMaxV (biased x0 x1)) (ix2 p c) = (Finset.univ : Finset (Fin 10)).fold max ninf (biasedRow x0 x1 p) :=
    fun c => (Cert.RowReduce.keepdims_apply (rowMaxV (biased x0 x1)) shapeCasts_S10000_S10000x1 broadcasts_S10000x1_S10000x10 p c).trans hM
  -- the exponentials of the shifted row, and their sum
  have hE : ∀ c : Fin 10, exp (subf (biased x0 x1) (keep (rowMaxV (biased x0 x1)))) (ix2 p c)
      = Ideal.exp (biasedRow x0 x1 p c - (Finset.univ : Finset (Fin 10)).fold max ninf (biasedRow x0 x1 p)) :=
    fun c => congrArg₂ (fun u v => Ideal.exp (u - v)) (biased_apply x0 x1 p c) (hK c)
  have hS : rowSumV (exp (subf (biased x0 x1) (keep (rowMaxV (biased x0 x1))))) (ix1 p)
      = ∑ c : Fin 10, Ideal.exp (biasedRow x0 x1 p c - (Finset.univ : Finset (Fin 10)).fold max ninf (biasedRow x0 x1 p)) :=
    (Cert.RowReduce.rowSum_apply _ 0x00000000#32 reduces_S10000x10_S10000 (.inl rfl) rfl p).trans
      (Finset.sum_congr rfl fun c _ => hE c)
  -- the logarithm of the sum, kept as a column and spread back
  have hL : broadcastTo S10000x10 (log (shapeCast S10000x1 (rowSumV (exp (subf (biased x0 x1) (keep (rowMaxV (biased x0 x1))))))
        shapeCasts_S10000_S10000x1)) broadcasts_S10000x1_S10000x10 (ix2 p q)
      = Ideal.log (∑ c : Fin 10, Ideal.exp (biasedRow x0 x1 p c - (Finset.univ : Finset (Fin 10)).fold max ninf (biasedRow x0 x1 p))) :=
    ((Cert.Keepdims.broadcastTo_a1_ab_apply _ broadcasts_S10000x1_S10000x10 p q).trans
      (congrArg Ideal.log (Cert.Keepdims.shapeCast_a_a1_apply _ shapeCasts_S10000_S10000x1 p (0 : Fin 1)))).trans (congrArg Ideal.log hS)
  exact congrArg₂ (· - ·) (congrArg₂ (· - ·) (biased_apply x0 x1 p q) (hK q)) hL

/-- The body's stored value on a block whose rows are rows `T·10000 + p` of `A`, at an index `j` of the block, is
    `logSoftmax (−∞) A B` at the array index `i` with the same column and row `T·10000 + j₀`. -/
theorem pay_block (A : S100000x10.Idx → EReal) (B : S1x10.Idx → EReal) (x0 : Vec Ideal S10000x10 .f32) (x1 : Vec Ideal S1x10 .f32)
    (T : ℕ) (hT : T < 10)
    (h0 : ∀ (p : Fin 10000) (k : Fin 10), x0 (ix2 p k) = A (ix2 (⟨T * 10000 + p.val, by omega⟩ : Fin 100000) k))
    (h1 : ∀ k : Fin 10, x1 (ix2 (0 : Fin 1) k) = B (ix2 (0 : Fin 1) k))
    (j : S10000x10.Idx) (i : S100000x10.Idx) (hi0 : (i 0).val = T * 10000 + (j 0).val) (hi1 : (i 1).val = (j 1).val) :
    k3_pay1 x0 x1 j = logSoftmax ninf A B i := by
  obtain ⟨p, q, rfl⟩ : ∃ (p : Fin 10000) (q : Fin 10), j = ix2 p q := ⟨j 0, j 1, eq_ix2 j⟩
  obtain ⟨P, Q, rfl⟩ : ∃ (P : Fin 100000) (Q : Fin 10), i = ix2 P Q := ⟨i 0, i 1, eq_ix2 i⟩
  have hlt : T * 10000 + p.val < 100000 := by have hp := p.isLt; clear hi0 hi1; omega
  obtain rfl : P = ⟨T * 10000 + p.val, hlt⟩ := Fin.ext hi0
  obtain rfl : q = Q := Fin.ext hi1.symm
  exact (pay_apply x0 x1 p q).trans
    (logSoftmaxAt_rows ninf x0 A x1 B (fun p => ⟨T * 10000 + p.val, by omega⟩) h0 h1 p q)

variable (V : (c : Dev nD) → (b : Ref sig .tc) → Buf (Elt Ideal) ((c : Thread nD τ).loc b))

/-- The printed index maps over the grid: block `t` of the input and of the output is row block `t`, the bias row
    stays where it is, and there are ten points. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- What point `t` writes back is block `t` of `logSoftmax (−∞) A b`. -/
theorem flushed_eq (c : Dev nD) (t : Fin cfg3.N) :
    (dat3 V c).flushed 2 t
      = ((cfg3.win 2).blk t).view.read (Elt Ideal) (logSoftmax ninf (V c main_v59) (V c main_v60)) := by
  show (cfg3.win 2).cut (grid3.coords t) ((dat3 V c).after 2 t) = _
  rw [after3_2]
  unfold out3_2
  rw [View.canon_unit_zero hz]
  simp only [View.ld_unit_zero (S := S10000x10) hz, View.ld_unit_zero (S := S1x10) hz]
  obtain ⟨e0, e1, e2, e3, e4, e5, e6⟩ := idx_facts t
  funext j
  show k3_pay1 (iblk3 V c 0 t) (iblk3 V c 1 t) j = logSoftmax ninf (V c main_v59) (V c main_v60) (((cfg3.win 2).blk t).view.emb j)
  refine pay_block (V c main_v59) (V c main_v60) (iblk3 V c 0 t) (iblk3 V c 1 t) t.val e6 (fun p k => ?_) (fun k => ?_) j _ ?_ ?_
  · show V c main_v59 (((cfg3.win 0).blk t).view.emb (ix2 p k)) = _
    refine congrArg (V c main_v59) (funext fun a => Fin.ext ?_)
    match a with
    | ⟨0, _⟩ => show win3_0.index t (0 : Fin 2) * 10000 + 1 * p.val = t.val * 10000 + p.val; rw [e0]; omega
    | ⟨1, _⟩ => show win3_0.index t (1 : Fin 2) * 10 + 1 * k.val = k.val; rw [e1]; omega
  · show V c main_v60 (((cfg3.win 1).blk t).view.emb (ix2 (0 : Fin 1) k)) = _
    refine congrArg (V c main_v60) (funext fun a => Fin.ext ?_)
    match a with
    | ⟨0, _⟩ => show win3_1.index t (0 : Fin 2) * 1 + 1 * 0 = 0; rw [e2]
    | ⟨1, _⟩ => show win3_1.index t (1 : Fin 2) * 10 + 1 * k.val = k.val; rw [e3]; omega
  · show win3_2.index t (0 : Fin 2) * 10000 + 1 * (j 0).val = t.val * 10000 + (j 0).val; rw [e4]; omega
  · show win3_2.index t (1 : Fin 2) * 10 + 1 * (j 1).val = (j 1).val; rw [e5]; omega

/-- An index of the array is in point `t`'s block iff each coordinate is in the block's range on its axis. -/
theorem mem_blk (t : Fin cfg3.N) (i : S100000x10.Idx) :
    i ∈ ((cfg3.win 2).blk t).view.set ↔ ∀ a : Fin 2, win3_2.index t a * S10000x10.size a ≤ (i a).val ∧ (i a).val < win3_2.index t a * S10000x10.size a + S10000x10.size a := by
  show i ∈ ((View.whole main_v61).slice (win3_2.rect t)).set ↔ _
  rw [View.set_slice_whole, Rect.mem_set_unit]
  exact Iff.rfl

/-- Every row block is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- The ten blocks tile the output array. -/
theorem cover (i : S100000x10.Idx) : ∃ t : Fin cfg3.N, (cfg3.win 2).flush t = true ∧ i ∈ ((cfg3.win 2).blk t).view.set := by
  have hi0 : (i 0).val < 100000 := (i 0).isLt
  have hi1 : (i 1).val < 10 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 10 ≤ (i 1).val ∧ (i 1).val < win3_2.index t (1 : Fin 2) * 10 + 10; omega

/-- After the region its output array is `logSoftmax (−∞) A b` of the two arrays it read. -/
theorem final (c : Dev nD) :
    (dat3 V c).arrAt 2 cfg3.N = logSoftmax ninf (V c main_v59) (V c main_v60) :=
  (dat3 V c).arrAt_eq_of_cover 2 _ (fun t _ => flushed_eq V c t) (cover)

end Cert.KernelIdeal.LogSoftmax

end
-- ==== Proof.KernelValue.lean ====
/-
  The idealized kernel's result as one function of its six arguments.

  The contents of the buffers the later segments read are followed from boundary to boundary of `@main`'s nine
  segments. The three host stretches before the first region leave the edge endpoints (with the self loops), and the
  per-edge normalization; the first matmul region leaves the features times the first weights; the next stretch
  aggregates them over the edges and lays the first bias out as a row; the bias-and-relu region and the second matmul
  region follow; the last stretch aggregates again and lays the second bias out as a row; the log-softmax region
  leaves the result. A segment changes only the buffers it writes, so the endpoints, the normalization and the
  arguments are carried unchanged to where they are read.
-/
import proofs.«122187_j73521250173346_1_alg».proof.Proof.Gen.KernelIdeal.Frame
import proofs.«122187_j73521250173346_1_alg».proof.Proof.KernelRun
import proofs.«122187_j73521250173346_1_alg».proof.Proof.Spec
import proofs.«122187_j73521250173346_1_alg».proof.Proof.Stages
import proofs.«122187_j73521250173346_1_alg».proof.Proof.RegionMatmul1
import proofs.«122187_j73521250173346_1_alg».proof.Proof.RegionRelu
import proofs.«122187_j73521250173346_1_alg».proof.Proof.RegionMatmul2
import proofs.«122187_j73521250173346_1_alg».proof.Proof.RegionLogSoftmax
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Stages Cert.Gcn

/-! ## The host stretches, from any contents `X` (at any float instance) -/

section Host

variable {F : FTy → Type} [FloatOps F]

/-- The stretches before the first region leave the source nodes, … -/
theorem pre_src (X : Valuation τ sig (Elt F)) :
    StableHlo.after hostOps0_2 (StableHlo.after hostOps0_1 (StableHlo.after hostOps0 X)) (Proc.devRef .tc main_v3) = srcOf (F := F) (X (Proc.devRef .tc main_arg1)) := by
  after_results_simp <;> rfl

/-- … the target nodes … -/
theorem pre_dst (X : Valuation τ sig (Elt F)) :
    StableHlo.after hostOps0_2 (StableHlo.after hostOps0_1 (StableHlo.after hostOps0 X)) (Proc.devRef .tc main_v6) = dstOf (F := F) (X (Proc.devRef .tc main_arg1)) := by
  after_results_simp <;> rfl

/-- … and the per-edge normalization; they write no argument. -/
theorem pre_norm (X : Valuation τ sig (Elt F)) :
    StableHlo.after hostOps0_2 (StableHlo.after hostOps0_1 (StableHlo.after hostOps0 X)) (Proc.devRef .tc main_v29) = normOf (F := F) (srcOf (F := F) (X (Proc.devRef .tc main_arg1))) (dstOf (F := F) (X (Proc.devRef .tc main_arg1))) := by
  after_results_simp <;> rfl

theorem pre_arg0 (X : Valuation τ sig (Elt F)) :
    StableHlo.after hostOps0_2 (StableHlo.after hostOps0_1 (StableHlo.after hostOps0 X)) (Proc.devRef .tc main_arg0) = (X (Proc.devRef .tc main_arg0)) := by
  after_results_simp <;> rfl
theorem pre_arg2 (X : Valuation τ sig (Elt F)) :
    StableHlo.after hostOps0_2 (StableHlo.after hostOps0_1 (StableHlo.after hostOps0 X)) (Proc.devRef .tc main_arg2) = (X (Proc.devRef .tc main_arg2)) := by
  after_results_simp <;> rfl
theorem pre_arg3 (X : Valuation τ sig (Elt F)) :
    StableHlo.after hostOps0_2 (StableHlo.after hostOps0_1 (StableHlo.after hostOps0 X)) (Proc.devRef .tc main_arg3) = (X (Proc.devRef .tc main_arg3)) := by
  after_results_simp <;> rfl
theorem pre_arg4 (X : Valuation τ sig (Elt F)) :
    StableHlo.after hostOps0_2 (StableHlo.after hostOps0_1 (StableHlo.after hostOps0 X)) (Proc.devRef .tc main_arg4) = (X (Proc.devRef .tc main_arg4)) := by
  after_results_simp <;> rfl
theorem pre_arg5 (X : Valuation τ sig (Elt F)) :
    StableHlo.after hostOps0_2 (StableHlo.after hostOps0_1 (StableHlo.after hostOps0 X)) (Proc.devRef .tc main_arg5) = (X (Proc.devRef .tc main_arg5)) := by
  after_results_simp <;> rfl

/-- The stretch after the first region aggregates the product over the edges … -/
theorem mid_agg (X : Valuation τ sig (Elt F)) :
    StableHlo.after hostOps1 X (Proc.devRef .tc main_v43) = agg16 (F := F) (X (Proc.devRef .tc main_v30)) (X (Proc.devRef .tc main_v3)) (X (Proc.devRef .tc main_v6)) (X (Proc.devRef .tc main_v29)) := by
  after_results_simp <;> rfl

/-- … and lays the first bias out as a row; it leaves the endpoints, the normalization and the later arguments alone. -/
theorem mid_bias (X : Valuation τ sig (Elt F)) :
    StableHlo.after hostOps1 X (Proc.devRef .tc main_v44) = biasRow16 (F := F) (X (Proc.devRef .tc main_arg3)) := by
  after_results_simp <;> rfl

theorem mid_v3 (X : Valuation τ sig (Elt F)) :
    StableHlo.after hostOps1 X (Proc.devRef .tc main_v3) = (X (Proc.devRef .tc main_v3)) := by
  after_results_simp <;> rfl
theorem mid_v6 (X : Valuation τ sig (Elt F)) :
    StableHlo.after hostOps1 X (Proc.devRef .tc main_v6) = (X (Proc.devRef .tc main_v6)) := by
  after_results_simp <;> rfl
theorem mid_v29 (X : Valuation τ sig (Elt F)) :
    StableHlo.after hostOps1 X (Proc.devRef .tc main_v29) = (X (Proc.devRef .tc main_v29)) := by
  after_results_simp <;> rfl
theorem mid_arg4 (X : Valuation τ sig (Elt F)) :
    StableHlo.after hostOps1 X (Proc.devRef .tc main_arg4) = (X (Proc.devRef .tc main_arg4)) := by
  after_results_simp <;> rfl
theorem mid_arg5 (X : Valuation τ sig (Elt F)) :
    StableHlo.after hostOps1 X (Proc.devRef .tc main_arg5) = (X (Proc.devRef .tc main_arg5)) := by
  after_results_simp <;> rfl

/-- The stretch before the last region aggregates the second product over the edges … -/
theorem last_agg (X : Valuation τ sig (Elt F)) :
    StableHlo.after hostOps3 X (Proc.devRef .tc main_v59) = agg10 (F := F) (X (Proc.devRef .tc main_v46)) (X (Proc.devRef .tc main_v3)) (X (Proc.devRef .tc main_v6)) (X (Proc.devRef .tc main_v29)) := by
  after_results_simp <;> rfl

/-- … and lays the second bias out as a row. -/
theorem last_bias (X : Valuation τ sig (Elt F)) :
    StableHlo.after hostOps3 X (Proc.devRef .tc main_v60) = biasRow10 (F := F) (X (Proc.devRef .tc main_arg5)) := by
  after_results_simp <;> rfl

end Host

/-! ## The buffers at each boundary -/

variable (m : (ℓ : Loc nD τ sig) → Buf (Elt Ideal) ℓ) (ρ : Dev nD → PrngReg)

theorem W3_v3 (c : Dev nD) : W3 m ρ c (Proc.devRef .tc main_v3) = (srcOf (F := Ideal) (m ((c : Thread nD τ).loc main_arg1))) :=
  pre_src (W0 m ρ c)
theorem W3_v6 (c : Dev nD) : W3 m ρ c (Proc.devRef .tc main_v6) = (dstOf (F := Ideal) (m ((c : Thread nD τ).loc main_arg1))) :=
  pre_dst (W0 m ρ c)
theorem W3_v29 (c : Dev nD) : W3 m ρ c (Proc.devRef .tc main_v29) = (normOf (F := Ideal) (srcOf (F := Ideal) (m ((c : Thread nD τ).loc main_arg1))) (dstOf (F := Ideal) (m ((c : Thread nD τ).loc main_arg1)))) :=
  pre_norm (W0 m ρ c)
theorem W3_arg0 (c : Dev nD) : W3 m ρ c (Proc.devRef .tc main_arg0) = (m ((c : Thread nD τ).loc main_arg0)) :=
  pre_arg0 (W0 m ρ c)
theorem W3_arg2 (c : Dev nD) : W3 m ρ c (Proc.devRef .tc main_arg2) = (m ((c : Thread nD τ).loc main_arg2)) :=
  pre_arg2 (W0 m ρ c)
theorem W3_arg3 (c : Dev nD) : W3 m ρ c (Proc.devRef .tc main_arg3) = (m ((c : Thread nD τ).loc main_arg3)) :=
  pre_arg3 (W0 m ρ c)
theorem W3_arg4 (c : Dev nD) : W3 m ρ c (Proc.devRef .tc main_arg4) = (m ((c : Thread nD τ).loc main_arg4)) :=
  pre_arg4 (W0 m ρ c)
theorem W3_arg5 (c : Dev nD) : W3 m ρ c (Proc.devRef .tc main_arg5) = (m ((c : Thread nD τ).loc main_arg5)) :=
  pre_arg5 (W0 m ρ c)

/-- After the first matmul region: the features times the first weights. -/
theorem W4_v30 (c : Dev nD) : W4 m ρ c (Proc.devRef .tc main_v30) = (matProd (m ((c : Thread nD τ).loc main_arg0)) (m ((c : Thread nD τ).loc main_arg2))) := by
  refine (W4_arr m ρ c 2).trans ((Matmul1.final (V3 m ρ) c).trans ?_)
  show matProd (W3 m ρ c (Proc.devRef .tc main_arg0)) (W3 m ρ c (Proc.devRef .tc main_arg2)) = _
  rw [W3_arg0, W3_arg2]
theorem W4_v3 (c : Dev nD) : W4 m ρ c (Proc.devRef .tc main_v3) = (srcOf (F := Ideal) (m ((c : Thread nD τ).loc main_arg1))) :=
  (W4_of_ne m ρ c main_v3 (by decide)).trans (W3_v3 m ρ c)
theorem W4_v6 (c : Dev nD) : W4 m ρ c (Proc.devRef .tc main_v6) = (dstOf (F := Ideal) (m ((c : Thread nD τ).loc main_arg1))) :=
  (W4_of_ne m ρ c main_v6 (by decide)).trans (W3_v6 m ρ c)
theorem W4_v29 (c : Dev nD) : W4 m ρ c (Proc.devRef .tc main_v29) = (normOf (F := Ideal) (srcOf (F := Ideal) (m ((c : Thread nD τ).loc main_arg1))) (dstOf (F := Ideal) (m ((c : Thread nD τ).loc main_arg1)))) :=
  (W4_of_ne m ρ c main_v29 (by decide)).trans (W3_v29 m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-- After the first aggregation. -/
theorem W5_v43 (c : Dev nD) : W5 m ρ c (Proc.devRef .tc main_v43) = (agg16 (F := Ideal) (matProd (m ((c : Thread nD τ).loc main_arg0)) (m ((c : Thread nD τ).loc main_arg2))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) := by
  refine (mid_agg (W4 m ρ c)).trans ?_
  rw [W4_v30, W4_v3, W4_v6, W4_v29]
theorem W5_v44 (c : Dev nD) : W5 m ρ c (Proc.devRef .tc main_v44) = biasRow16 (F := Ideal) (m ((c : Thread nD τ).loc main_arg3)) := by
  refine (mid_bias (W4 m ρ c)).trans ?_
  rw [W4_arg3]
theorem W5_v3 (c : Dev nD) : W5 m ρ c (Proc.devRef .tc main_v3) = (srcOf (F := Ideal) (m ((c : Thread nD τ).loc main_arg1))) :=
  (mid_v3 (W4 m ρ c)).trans (W4_v3 m ρ c)
theorem W5_v6 (c : Dev nD) : W5 m ρ c (Proc.devRef .tc main_v6) = (dstOf (F := Ideal) (m ((c : Thread nD τ).loc main_arg1))) :=
  (mid_v6 (W4 m ρ c)).trans (W4_v6 m ρ c)
theorem W5_v29 (c : Dev nD) : W5 m ρ c (Proc.devRef .tc main_v29) = (normOf (F := Ideal) (srcOf (F := Ideal) (m ((c : Thread nD τ).loc main_arg1))) (dstOf (F := Ideal) (m ((c : Thread nD τ).loc main_arg1)))) :=
  (mid_v29 (W4 m ρ c)).trans (W4_v29 m ρ c)
theorem W5_arg4 (c : Dev nD) : W5 m ρ c (Proc.devRef .tc main_arg4) = (m ((c : Thread nD τ).loc main_arg4)) :=
  (mid_arg4 (W4 m ρ c)).trans (W4_arg4 m ρ c)
theorem W5_arg5 (c : Dev nD) : W5 m ρ c (Proc.devRef .tc main_arg5) = (m ((c : Thread nD τ).loc main_arg5)) :=
  (mid_arg5 (W4 m ρ c)).trans (W4_arg5 m ρ c)

/-- After the bias-and-relu region. -/
theorem W6_v45 (c : Dev nD) : W6 m ρ c (Proc.devRef .tc main_v45) = (biasRelu Relu.z0 (agg16 (F := Ideal) (matProd (m ((c : Thread nD τ).loc main_arg0)) (m ((c : Thread nD τ).loc main_arg2))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (biasRow16 (F := Ideal) (m ((c : Thread nD τ).loc main_arg3)))) := by
  refine (W6_arr m ρ c 2).trans ((Relu.final (V5 m ρ) c).trans ?_)
  show biasRelu Relu.z0 (W5 m ρ c (Proc.devRef .tc main_v43)) (W5 m ρ c (Proc.devRef .tc main_v44)) = _
  rw [W5_v43, W5_v44]
theorem W6_v3 (c : Dev nD) : W6 m ρ c (Proc.devRef .tc main_v3) = (srcOf (F := Ideal) (m ((c : Thread nD τ).loc main_arg1))) :=
  (W6_of_ne m ρ c main_v3 (by decide)).trans (W5_v3 m ρ c)
theorem W6_v6 (c : Dev nD) : W6 m ρ c (Proc.devRef .tc main_v6) = (dstOf (F := Ideal) (m ((c : Thread nD τ).loc main_arg1))) :=
  (W6_of_ne m ρ c main_v6 (by decide)).trans (W5_v6 m ρ c)
theorem W6_v29 (c : Dev nD) : W6 m ρ c (Proc.devRef .tc main_v29) = (normOf (F := Ideal) (srcOf (F := Ideal) (m ((c : Thread nD τ).loc main_arg1))) (dstOf (F := Ideal) (m ((c : Thread nD τ).loc main_arg1)))) :=
  (W6_of_ne m ρ c main_v29 (by decide)).trans (W5_v29 m ρ c)
theorem W6_arg4 (c : Dev nD) : W6 m ρ c (Proc.devRef .tc main_arg4) = (m ((c : Thread nD τ).loc main_arg4)) :=
  (W6_of_ne m ρ c main_arg4 (by decide)).trans (W5_arg4 m ρ c)
theorem W6_arg5 (c : Dev nD) : W6 m ρ c (Proc.devRef .tc main_arg5) = (m ((c : Thread nD τ).loc main_arg5)) :=
  (W6_of_ne m ρ c main_arg5 (by decide)).trans (W5_arg5 m ρ c)

/-- After the second matmul region. -/
theorem W7_v46 (c : Dev nD) : W7 m ρ c (Proc.devRef .tc main_v46) = (matProd (biasRelu Relu.z0 (agg16 (F := Ideal) (matProd (m ((c : Thread nD τ).loc main_arg0)) (m ((c : Thread nD τ).loc main_arg2))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (biasRow16 (F := Ideal) (m ((c : Thread nD τ).loc main_arg3)))) (m ((c : Thread nD τ).loc main_arg4))) := by
  refine (W7_arr m ρ c 2).trans ((Matmul2.final (V6 m ρ) c).trans ?_)
  show matProd (W6 m ρ c (Proc.devRef .tc main_v45)) (W6 m ρ c (Proc.devRef .tc main_arg4)) = _
  rw [W6_v45, W6_arg4]
theorem W7_v3 (c : Dev nD) : W7 m ρ c (Proc.devRef .tc main_v3) = (srcOf (F := Ideal) (m ((c : Thread nD τ).loc main_arg1))) :=
  (W7_of_ne m ρ c main_v3 (by decide)).trans (W6_v3 m ρ c)
theorem W7_v6 (c : Dev nD) : W7 m ρ c (Proc.devRef .tc main_v6) = (dstOf (F := Ideal) (m ((c : Thread nD τ).loc main_arg1))) :=
  (W7_of_ne m ρ c main_v6 (by decide)).trans (W6_v6 m ρ c)
theorem W7_v29 (c : Dev nD) : W7 m ρ c (Proc.devRef .tc main_v29) = (normOf (F := Ideal) (srcOf (F := Ideal) (m ((c : Thread nD τ).loc main_arg1))) (dstOf (F := Ideal) (m ((c : Thread nD τ).loc main_arg1)))) :=
  (W7_of_ne m ρ c main_v29 (by decide)).trans (W6_v29 m ρ c)
theorem W7_arg5 (c : Dev nD) : W7 m ρ c (Proc.devRef .tc main_arg5) = (m ((c : Thread nD τ).loc main_arg5)) :=
  (W7_of_ne m ρ c main_arg5 (by decide)).trans (W6_arg5 m ρ c)

/-- After the second aggregation. -/
theorem W8_v59 (c : Dev nD) : W8 m ρ c (Proc.devRef .tc main_v59) = (agg10 (F := Ideal) (matProd (biasRelu Relu.z0 (agg16 (F := Ideal) (matProd (m ((c : Thread nD τ).loc main_arg0)) (m ((c : Thread nD τ).loc main_arg2))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) (biasRow16 (F := Ideal) (m ((c : Thread nD τ).loc main_arg3)))) (m ((c : Thread nD τ).loc main_arg4))) (srcOf (F := Ideal) (m ((c : Thread nD τ).loc main_arg1))) (dstOf (F := Ideal) (m ((c : Thread nD τ).loc main_arg1))) (normOf (F := Ideal) (srcOf (F := Ideal) (m ((c : Thread nD τ).loc main_arg1))) (dstOf (F := Ideal) (m ((c : Thread nD τ).loc main_arg1))))) := by
  refine (last_agg (W7 m ρ c)).trans ?_
  rw [W7_v46, W7_v3, W7_v6, W7_v29]
theorem W8_v60 (c : Dev nD) : W8 m ρ c (Proc.devRef .tc main_v60) = biasRow10 (F := Ideal) (m ((c : Thread nD τ).loc main_arg5)) := by
  refine (last_bias (W7 m ρ c)).trans ?_
  rw [W7_arg5]

/-- The kernel's result as one function of its six arguments: two rounds of "multiply by the weights, aggregate over the
    edges, add the bias", a maximum with zero between them and the rows' log-softmax at the end. -/
def kernelValue (x : (⟨S100000x132, .f32⟩ : BufTy).Contents (Elt Ideal)) (e : (⟨S2x3200000, .i32⟩ : BufTy).Contents (Elt Ideal))
    (w1 : (⟨S132x16, .f32⟩ : BufTy).Contents (Elt Ideal)) (b1 : (⟨S16, .f32⟩ : BufTy).Contents (Elt Ideal))
    (w2 : (⟨S16x10, .f32⟩ : BufTy).Contents (Elt Ideal)) (b2 : (⟨S10, .f32⟩ : BufTy).Contents (Elt Ideal)) :
    (⟨S100000x10, .f32⟩ : BufTy).Contents (Elt Ideal) :=
  logSoftmax LogSoftmax.ninf
    (agg10 (F := Ideal)
      (matProd (biasRelu Relu.z0
        (agg16 (F := Ideal) (matProd x w1) (srcOf (F := Ideal) e) (dstOf (F := Ideal) e) (normOf (F := Ideal) (srcOf (F := Ideal) e) (dstOf (F := Ideal) e)))
        (biasRow16 (F := Ideal) b1)) w2)
      (srcOf (F := Ideal) e) (dstOf (F := Ideal) e) (normOf (F := Ideal) (srcOf (F := Ideal) e) (dstOf (F := Ideal) e)))
    (biasRow10 (F := Ideal) b2)

/-- After the last region the result buffer holds `kernelValue` of the arguments. -/
theorem W9_out (c : Dev nD) : W9 m ρ c (Proc.devRef .tc main_v61)
    = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((LogSoftmax.final (V8 m ρ) c).trans ?_)
  show logSoftmax LogSoftmax.ninf (W8 m ρ c (Proc.devRef .tc main_v59)) (W8 m ρ c (Proc.devRef .tc main_v60)) = _
  rw [W8_v59, W8_v60]
  rfl

/-- The kernel's run: the result buffer at `kernelValue` of the arguments, the arguments unchanged. -/
theorem run : θ_run defs (onTc (τ := τ) (main (F := Ideal))) ⟨m, fun _ => 0, ρ⟩ (fun r => ∀ c : Dev nD,
      r.2.mem ((c.tc : Thread nD τ).loc main_v61)
        = kernelValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W9_out m ρ c), (h c).2⟩) (run_result m ρ)

end Cert.KernelIdeal.Whole

end
-- ==== Proof.RefStages.lean ====
/-
  The reference program's host stages, each as one function of the arrays it reads: the edge endpoints with the self
  loops appended, the wrapped node numbers as a column, the degrees, `deg^(-1/2)`, the per-edge normalization and
  the two aggregations — the same functions as the kernel program's, written in the reference's own vocabulary —
  and the stages only the reference has on the host: the two matrix products (`dot1`, `dot2`), a bias vector
  added to every row (`addBias16`, `addBias10`), the maximum with zero (`relu16`) and the rows' log-softmax with the
  row maximum subtracted first (`hostLogSoftmax`).
-/
import proofs.«122187_j73521250173346_1_alg».proof.ReferenceIdeal
import proofs.«122187_j73521250173346_1_alg».proof.Proof.Gen.ReferenceIdeal

noncomputable section

namespace Cert.ReferenceIdeal.Stages

open Idealize.ShloMosaic Cert.ReferenceIdeal
open Cert.ReferenceIdeal.Facts₀ Cert.ReferenceIdeal.Facts

variable {F : FTy → Type} [FloatOps F]

/-- The edges' source nodes, the self loops appended. -/
def srcOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' target nodes, the self loops appended. -/
def dstOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- Node numbers with a negative one wrapped around (`v + 100000`), as a column. -/
def wrapCol (s : (⟨S3300000, .i32⟩ : BufTy).Contents (Elt F)) : (⟨S3300000x1, .i32⟩ : BufTy).Contents (Elt F) :=
  broadcastInDim S3300000x1 ![0] bcast_S3300000_S3300000x1_0 (select (cmpi .slt s (broadcastInDim S3300000 ![] bcast_S_S3300000 (constantI S_ 32 0#32))) (addi s (broadcastInDim S3300000 ![] bcast_S_S3300000 (constantI S_ 32 100000#32))) s)

/-- Per node, the number of edges ending there (ones added into a zero array at the target nodes). -/
def degOf (d : (⟨S3300000, .i32⟩ : BufTy).Contents (Elt F)) : (⟨S100000, .f32⟩ : BufTy).Contents (Elt F) :=
  Host.scatterAdd (F := F) scatter_S100000_S3300000x1_S3300000_n_0_0_1 (broadcastInDim S100000 ![] bcast_S_S100000 (constant (F := F) S_ .f32 0x00000000#32)) (broadcastInDim S3300000x1 ![0] bcast_S3300000_S3300000x1_0 d) (broadcastInDim S3300000 ![] bcast_S_S3300000 (constant (F := F) S_ .f32 0x3F800000#32))

/-- `deg^(-1/2)` where the degree is positive, zero elsewhere. -/
def dinvOf (d : (⟨S3300000, .i32⟩ : BufTy).Contents (Elt F)) : (⟨S100000, .f32⟩ : BufTy).Contents (Elt F) :=
  select (cmpf (F := F) .ogt (degOf (F := F) d) (broadcastInDim S100000 ![] bcast_S_S100000 (constant (F := F) S_ .f32 0x00000000#32))) (Host.rsqrt (F := F) (degOf (F := F) d)) (broadcastInDim S100000 ![] bcast_S_S100000 (id (constant (F := F) S_ .f32 0x00000000#32)))

/-- Per edge, `dinv(src) · dinv(dst)`. -/
def normOf (s d : (⟨S3300000, .i32⟩ : BufTy).Contents (Elt F)) : (⟨S3300000, .f32⟩ : BufTy).Contents (Elt F) :=
  mulf (F := F) (Host.gather gather_S100000_S3300000x1_S3300000_n_0_n_n_0_1_1 (dinvOf (F := F) d) (wrapCol (F := F) s)) (Host.gather gather_S100000_S3300000x1_S3300000_n_0_n_n_0_1_1 (dinvOf (F := F) d) (wrapCol (F := F) d))

/-- Row `src` of `h` per edge, scaled by the edge's `nrm`, added into row `dst` of a zero array (16 columns). -/
def agg16 (h : (⟨S100000x16, .f32⟩ : BufTy).Contents (Elt F)) (s d : (⟨S3300000, .i32⟩ : BufTy).Contents (Elt F)) (nrm : (⟨S3300000, .f32⟩ : BufTy).Contents (Elt F)) : (⟨S100000x16, .f32⟩ : BufTy).Contents (Elt F) :=
  Host.scatterAdd (F := F) scatter_S100000x16_S3300000x1_S3300000x16_1_0_0_1 (broadcastInDim S100000x16 ![] bcast_S_S100000x16 (constant (F := F) S_ .f32 0x00000000#32)) (broadcastInDim S3300000x1 ![0] bcast_S3300000_S3300000x1_0 d) (mulf (F := F) (Host.gather gather_S100000x16_S3300000x1_S3300000x16_1_0_n_n_0_1_116 h (wrapCol (F := F) s)) (broadcastInDim S3300000x16 ![0, 1] bcast_S3300000x1_S3300000x16_0_1 (broadcastInDim S3300000x1 ![0] bcast_S3300000_S3300000x1_0 nrm)))

/-- Row `src` of `h` per edge, scaled by the edge's `nrm`, added into row `dst` of a zero array (10 columns). -/
def agg10 (h : (⟨S100000x10, .f32⟩ : BufTy).Contents (Elt F)) (s d : (⟨S3300000, .i32⟩ : BufTy).Contents (Elt F)) (nrm : (⟨S3300000, .f32⟩ : BufTy).Contents (Elt F)) : (⟨S100000x10, .f32⟩ : BufTy).Contents (Elt F) :=
  Host.scatterAdd (F := F) scatter_S100000x10_S3300000x1_S3300000x10_1_0_0_1 (broadcastInDim S100000x10 ![] bcast_S_S100000x10 (constant (F := F) S_ .f32 0x00000000#32)) (broadcastInDim S3300000x1 ![0] bcast_S3300000_S3300000x1_0 d) (mulf (F := F) (Host.gather gather_S100000x10_S3300000x1_S3300000x10_1_0_n_n_0_1_110 h (wrapCol (F := F) s)) (broadcastInDim S3300000x10 ![0, 1] bcast_S3300000x1_S3300000x10_0_1 (broadcastInDim S3300000x1 ![0] bcast_S3300000_S3300000x1_0 nrm)))

/-- The first layer's linear map: features times weights. -/
def dot1 (x : (⟨S100000x132, .f32⟩ : BufTy).Contents (Elt F)) (w : (⟨S132x16, .f32⟩ : BufTy).Contents (Elt F)) : (⟨S100000x16, .f32⟩ : BufTy).Contents (Elt F) :=
  Host.dotGeneral (F := F) dot_S100000x132_S132x16_S100000x16_1_0_0_1_n_n none x w

/-- The second layer's linear map. -/
def dot2 (h : (⟨S100000x16, .f32⟩ : BufTy).Contents (Elt F)) (w : (⟨S16x10, .f32⟩ : BufTy).Contents (Elt F)) : (⟨S100000x10, .f32⟩ : BufTy).Contents (Elt F) :=
  Host.dotGeneral (F := F) dot_S100000x16_S16x10_S100000x10_1_0_0_1_n_n none h w

/-- A bias vector of 16 entries added to every row. -/
def addBias16 (a : (⟨S100000x16, .f32⟩ : BufTy).Contents (Elt F)) (b : (⟨S16, .f32⟩ : BufTy).Contents (Elt F)) : (⟨S100000x16, .f32⟩ : BufTy).Contents (Elt F) :=
  addf (F := F) a (broadcastInDim S100000x16 ![0, 1] bcast_S1x16_S100000x16_0_1 (broadcastInDim S1x16 ![1] bcast_S16_S1x16_1 b))

/-- The maximum with zero. -/
def relu16 (a : (⟨S100000x16, .f32⟩ : BufTy).Contents (Elt F)) : (⟨S100000x16, .f32⟩ : BufTy).Contents (Elt F) :=
  maximumf (F := F) a (broadcastInDim S100000x16 ![] bcast_S_S100000x16 (constant (F := F) S_ .f32 0x00000000#32))

/-- A bias vector of 10 entries added to every row. -/
def addBias10 (a : (⟨S100000x10, .f32⟩ : BufTy).Contents (Elt F)) (b : (⟨S10, .f32⟩ : BufTy).Contents (Elt F)) : (⟨S100000x10, .f32⟩ : BufTy).Contents (Elt F) :=
  addf (F := F) a (broadcastInDim S100000x10 ![0, 1] bcast_S1x10_S100000x10_0_1 (broadcastInDim S1x10 ![1] bcast_S10_S1x10_1 b))

/-- The rows' maxima (from −∞, and once more against −∞), kept as a column and spread back over the rows. -/
def keepMax (a : (⟨S100000x10, .f32⟩ : BufTy).Contents (Elt F)) : (⟨S100000x10, .f32⟩ : BufTy).Contents (Elt F) :=
  broadcastInDim S100000x10 ![0, 1] bcast_S100000x1_S100000x10_0_1 (broadcastInDim S100000x1 ![0] bcast_S100000_S100000x1_0 (maximumf (F := F) (broadcastInDim S100000 ![] bcast_S_S100000 (constant (F := F) S_ .f32 0xFF800000#32)) (Host.reduce FloatOps.maximumf a (constant (F := F) S_ .f32 0xFF800000#32) reducesTo_S100000x10_S100000_d1 h_S_)))

/-- The rows' log-softmax: the row maximum subtracted, then the logarithm of the row's sum of exponentials. -/
def hostLogSoftmax (a : (⟨S100000x10, .f32⟩ : BufTy).Contents (Elt F)) : (⟨S100000x10, .f32⟩ : BufTy).Contents (Elt F) :=
  subf (F := F) (subf (F := F) a (keepMax (F := F) a)) (broadcastInDim S100000x10 ![0, 1] bcast_S100000x1_S100000x10_0_1 (Host.log (F := F) (broadcastInDim S100000x1 ![0] bcast_S100000_S100000x1_0 (Host.reduceAdd (F := F) (Host.exp (F := F) (subf (F := F) a (keepMax (F := F) a))) (constant (F := F) S_ .f32 0x00000000#32) reducesTo_S100000x10_S100000_d1 h_S_))))

end Cert.ReferenceIdeal.Stages

end
-- ==== Proof.RefRun.lean ====
/-
  The reference program's run, read in five stretches of its 138 host operations.

  The stretches: (A) the edge endpoints with self loops and the per-edge normalization; (B) the first layer — the
  product with the first weights, the aggregation over the edges, the bias and the maximum with zero; (C) the endpoints
  and the normalization once more (the reference recomputes them for its second layer); (D) the second layer — the
  product with the second weights, the aggregation and the bias; (E) the rows' log-softmax. After each stretch the buffers
  the later stretches read hold the stage functions of `RefStages` of what the stretch found, and every buffer the
  stretch does not write keeps its contents. Composed, the result buffer ends at `refValue` of the six arguments.
-/
import proofs.«122187_j73521250173346_1_alg».proof.Proof.RefRunPatched
import proofs.«122187_j73521250173346_1_alg».proof.Proof.RefStages
import Idealize.ShloMosaic.Lib.StableHlo.Run

set_option maxRecDepth 16384

noncomputable section

namespace Cert.ReferenceIdeal.Staged

open Cert.ReferenceIdeal Cert.ReferenceIdeal.Gen Cert.ReferenceIdeal.ValueP Cert.ReferenceIdeal.Stages
open Idealize.ShloMosaic Idealize.ShloMosaic.TcCoe Idealize.SL.Sem Idealize.ShloMosaic.StableHlo

variable {F : FTy → Type} [FloatOps F]

/-- Contents carried to a buffer's own type and back are unchanged (an outlined function's operations read and write
    their buffers through such a pair). -/
theorem ofBuf_toBuf {T : BufTy} (x : TRef sig T) (v : T.Contents (Elt F)) : x.ofBuf (x.toBuf v) = v := by
  obtain ⟨r, h, a, b⟩ := x
  subst h
  rfl

/-- Operations run one stretch after another are their concatenation run as one. -/
theorem after_append (A B : List (HloOp τ sig (Elt F))) (V : Valuation τ sig (Elt F)) :
    after (A ++ B) V = after B (after A V) := by
  induction A generalizing V with
  | nil => rfl
  | cons op A ih => exact ih (op.result V)

/-- Stretch A: the endpoints and the normalization (operations 1 … 40). -/
abbrev opsA : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Stretch B: the first layer (operations 41 … 63). -/
abbrev opsB : List (HloOp τ sig (Elt F)) :=
  [ binary main_arg0 main_arg2 main_v30 ((fun l r => Host.dotGeneral dot_S100000x132_S132x16_S100000x16_1_0_0_1_n_n none l r) : (⟨S100000x132, .f32⟩ : BufTy).Contents (Elt F) → (⟨S132x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- Stretch C: the endpoints and the normalization again (operations 64 … 103). -/
abbrev opsC : List (HloOp τ sig (Elt F)) :=
  [ nullary main_v48 (iotaInDim S100000 32 0),
    unary main_arg1 main_v49 ((extractStridedSlice S1x3200000 ![0, 0] · slices_S2x3200000_S1x3200000_0_0) : (⟨S2x3200000, .i32⟩ : BufTy).Contents (Elt F) → (⟨S1x3200000, .i32⟩ : BufTy).Contents (Elt F)),
    reshape main_v49 main_v50 rfl shapeCasts_S1x3200000_S3200000,
    binary main_v50 main_v48 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v52 ((extractStridedSlice S1x3200000 ![1, 0] · slices_S2x3200000_S1x3200000_1_0) : (⟨S2x3200000, .i32⟩ : BufTy).Contents (Elt F) → (⟨S1x3200000, .i32⟩ : BufTy).Contents (Elt F)),
    reshape main_v52 main_v53 rfl shapeCasts_S1x3200000_S3200000,
    binary main_v53 main_v48 main_v54 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v55 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S3300000x1 ![0] bcast_S3300000_S3300000x1_0 : (⟨S3300000, .i32⟩ : BufTy).Contents (Elt F) → (⟨S3300000x1, .i32⟩ : BufTy).Contents (Elt F)),
    ternary main_v56 main_v57 main_v55 main_v58 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S3300000 ![] bcast_S_S3300000 : (⟨S_, .i32⟩ : BufTy).Contents (Elt F) → (⟨S3300000, .i32⟩ : BufTy).Contents (Elt F)),
    binary main_v51 main_v63 main_v64 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v65 (broadcastInDim S3300000 ![] bcast_S_S3300000 : (⟨S_, .i32⟩ : BufTy).Contents (Elt F) → (⟨S3300000, .i32⟩ : BufTy).Contents (Elt F)),
    binary main_v51 main_v65 main_v66 (addi : (⟨S3300000, .i32⟩ : BufTy).Contents (Elt F) → (⟨S3300000, .i32⟩ : BufTy).Contents (Elt F) → (⟨S3300000, .i32⟩ : BufTy).Contents (Elt F)),
    ternary main_v64 main_v66 main_v51 main_v67 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v67 main_v68 (broadcastInDim S3300000x1 ![0] bcast_S3300000_S3300000x1_0 : (⟨S3300000, .i32⟩ : BufTy).Contents (Elt F) → (⟨S3300000x1, .i32⟩ : BufTy).Contents (Elt F)),
    binary main_v62 main_v68 main_v69 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v70 (broadcastInDim S3300000 ![] bcast_S_S3300000 : (⟨S_, .i32⟩ : BufTy).Contents (Elt F) → (⟨S3300000, .i32⟩ : BufTy).Contents (Elt F)),
    binary main_v54 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v72 (broadcastInDim S3300000 ![] bcast_S_S3300000 : (⟨S_, .i32⟩ : BufTy).Contents (Elt F) → (⟨S3300000, .i32⟩ : BufTy).Contents (Elt F)),
    binary main_v54 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v54 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v62 main_v75 main_v76 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v69 main_v76 main_v77 (mulf : (⟨S3300000, .f32⟩ : BufTy).Contents (Elt F) → (⟨S3300000, .f32⟩ : BufTy).Contents (Elt F) → (⟨S3300000, .f32⟩ : BufTy).Contents (Elt F)) ]

/-- Stretch D: the second layer up to its bias (operations 104 … 123). -/
abbrev opsD : List (HloOp τ sig (Elt F)) :=
  [ binary main_v47 main_arg4 main_v78 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    nullary main_c_17 (constantI S_ 32 0#32),
    unary main_c_17 main_v79 (broadcastInDim S3300000 ![] bcast_S_S3300000 : (⟨S_, .i32⟩ : BufTy).Contents (Elt F) → (⟨S3300000, .i32⟩ : BufTy).Contents (Elt F)),
    binary main_v51 main_v79 main_v80 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v81 (broadcastInDim S3300000 ![] bcast_S_S3300000 : (⟨S_, .i32⟩ : BufTy).Contents (Elt F) → (⟨S3300000, .i32⟩ : BufTy).Contents (Elt F)),
    binary main_v51 main_v81 main_v82 (addi : (⟨S3300000, .i32⟩ : BufTy).Contents (Elt F) → (⟨S3300000, .i32⟩ : BufTy).Contents (Elt F) → (⟨S3300000, .i32⟩ : BufTy).Contents (Elt F)),
    ternary main_v80 main_v82 main_v51 main_v83 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v83 main_v84 (broadcastInDim S3300000x1 ![0] bcast_S3300000_S3300000x1_0 : (⟨S3300000, .i32⟩ : BufTy).Contents (Elt F) → (⟨S3300000x1, .i32⟩ : BufTy).Contents (Elt F)),
    binary main_v78 main_v84 main_v85 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v77 main_v86 (broadcastInDim S3300000x1 ![0] bcast_S3300000_S3300000x1_0 : (⟨S3300000, .f32⟩ : BufTy).Contents (Elt F) → (⟨S3300000x1, .f32⟩ : BufTy).Contents (Elt F)),
    unary main_v86 main_v87 (broadcastInDim S3300000x10 ![0, 1] bcast_S3300000x1_S3300000x10_0_1 : (⟨S3300000x1, .f32⟩ : BufTy).Contents (Elt F) → (⟨S3300000x10, .f32⟩ : BufTy).Contents (Elt F)),
    binary main_v85 main_v87 main_v88 (mulf : (⟨S3300000x10, .f32⟩ : BufTy).Contents (Elt F) → (⟨S3300000x10, .f32⟩ : BufTy).Contents (Elt F) → (⟨S3300000x10, .f32⟩ : BufTy).Contents (Elt F)),
    nullary main_cst_19 (constant S_ .f32 0x00000000#32),
    unary main_cst_19 main_v89 (broadcastInDim S100000x10 ![] bcast_S_S100000x10 : (⟨S_, .f32⟩ : BufTy).Contents (Elt F) → (⟨S100000x10, .f32⟩ : BufTy).Contents (Elt F)),
    unary main_v54 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg5 main_v92 (broadcastInDim S1x10 ![1] bcast_S10_S1x10_1 : (⟨S10, .f32⟩ : BufTy).Contents (Elt F) → (⟨S1x10, .f32⟩ : BufTy).Contents (Elt F)),
    unary main_v92 main_v93 (broadcastInDim S100000x10 ![0, 1] bcast_S1x10_S100000x10_0_1 : (⟨S1x10, .f32⟩ : BufTy).Contents (Elt F) → (⟨S100000x10, .f32⟩ : BufTy).Contents (Elt F)),
    binary main_v91 main_v93 main_v94 (addf : (⟨S100000x10, .f32⟩ : BufTy).Contents (Elt F) → (⟨S100000x10, .f32⟩ : BufTy).Contents (Elt F) → (⟨S100000x10, .f32⟩ : BufTy).Contents (Elt F)) ]

/-- Stretch E: the rows' log-softmax (operations 124 … 138). -/
abbrev opsE : List (HloOp τ sig (Elt F)) :=
  [ TRef.nullary (TRef.of (T := ⟨S_, .f32⟩) main_call3_cst) (constant S_ .f32 0xFF800000#32),
    TRef.binary (TRef.of (T := ⟨S100000x10, .f32⟩) main_v94) (TRef.of (T := ⟨S_, .f32⟩) main_call3_cst) (TRef.of (T := ⟨S100000, .f32⟩) main_call3_v0) (fun x v => Host.reduce FloatOps.maximumf x v reducesTo_S100000x10_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x10, .f32⟩) main_call3_v4) (broadcastInDim S100000x10 ![0, 1] bcast_S100000x1_S100000x10_0_1),
    TRef.binary (TRef.of (T := ⟨S100000x10, .f32⟩) main_v94) (TRef.of (T := ⟨S100000x10, .f32⟩) main_call3_v4) (TRef.of (T := ⟨S100000x10, .f32⟩) main_call3_v5) subf,
    TRef.unary (TRef.of (T := ⟨S100000x10, .f32⟩) main_call3_v5) (TRef.of (T := ⟨S100000x10, .f32⟩) main_call3_v6) Host.exp,
    TRef.nullary (TRef.of (T := ⟨S_, .f32⟩) main_call3_cst_1) (constant S_ .f32 0x00000000#32),
    TRef.binary (TRef.of (T := ⟨S100000x10, .f32⟩) main_call3_v6) (TRef.of (T := ⟨S_, .f32⟩) main_call3_cst_1) (TRef.of (T := ⟨S100000, .f32⟩) main_call3_v7) (fun x v => Host.reduceAdd x v reducesTo_S100000x10_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x10, .f32⟩) main_call3_v10) (broadcastInDim S100000x10 ![0, 1] bcast_S100000x1_S100000x10_0_1),
    TRef.binary (TRef.of (T := ⟨S100000x10, .f32⟩) main_call3_v5) (TRef.of (T := ⟨S100000x10, .f32⟩) main_call3_v10) (TRef.of (T := ⟨S100000x10, .f32⟩) main_v95) subf ]

/-- The five stretches in order are the program's operation list. -/
theorem ops_split : (ops (F := F)) = opsA ++ (opsB ++ (opsC ++ (opsD ++ opsE))) := rfl

/-! ## Stretch A -/

/-- After stretch A the source nodes are `srcOf` of the edge list. -/
theorem A_src (V : Valuation τ sig (Elt F)) : after (opsA (F := F)) V (Proc.devRef .tc main_v3) = srcOf (V (Proc.devRef .tc main_arg1)) := by
  after_results_simp <;> rfl

/-- After stretch A the target nodes are `dstOf` of the edge list. -/
theorem A_dst (V : Valuation τ sig (Elt F)) : after (opsA (F := F)) V (Proc.devRef .tc main_v6) = dstOf (V (Proc.devRef .tc main_arg1)) := by
  after_results_simp <;> rfl

/-- After stretch A the per-edge normalization is `normOf` of the endpoints. -/
theorem A_norm (V : Valuation τ sig (Elt F)) : after (opsA (F := F)) V (Proc.devRef .tc main_v29) = normOf (srcOf (V (Proc.devRef .tc main_arg1))) (dstOf (V (Proc.devRef .tc main_arg1))) := by
  after_results_simp <;> rfl

theorem keepA_arg0 (V : Valuation τ sig (Elt F)) : after (opsA (F := F)) V (Proc.devRef .tc main_arg0) = V (Proc.devRef .tc main_arg0) := by
  after_results_simp <;> rfl
theorem keepA_arg1 (V : Valuation τ sig (Elt F)) : after (opsA (F := F)) V (Proc.devRef .tc main_arg1) = V (Proc.devRef .tc main_arg1) := by
  after_results_simp <;> rfl
theorem keepA_arg2 (V : Valuation τ sig (Elt F)) : after (opsA (F := F)) V (Proc.devRef .tc main_arg2) = V (Proc.devRef .tc main_arg2) := by
  after_results_simp <;> rfl
theorem keepA_arg3 (V : Valuation τ sig (Elt F)) : after (opsA (F := F)) V (Proc.devRef .tc main_arg3) = V (Proc.devRef .tc main_arg3) := by
  after_results_simp <;> rfl
theorem keepA_arg4 (V : Valuation τ sig (Elt F)) : after (opsA (F := F)) V (Proc.devRef .tc main_arg4) = V (Proc.devRef .tc main_arg4) := by
  after_results_simp <;> rfl
theorem keepA_arg5 (V : Valuation τ sig (Elt F)) : after (opsA (F := F)) V (Proc.devRef .tc main_arg5) = V (Proc.devRef .tc main_arg5) := by
  after_results_simp <;> rfl

/-! ## Stretch B -/

/-- After stretch B the first layer's output: the product, aggregated over the edges, biased, against zero. -/
theorem B_h1 (V : Valuation τ sig (Elt F)) : after (opsB (F := F)) V (Proc.devRef .tc main_v47) = relu16 (addBias16 (agg16 (dot1 (V (Proc.devRef .tc main_arg0)) (V (Proc.devRef .tc main_arg2))) (V (Proc.devRef .tc main_v3)) (V (Proc.devRef .tc main_v6)) (V (Proc.devRef .tc main_v29))) (V (Proc.devRef .tc main_arg3))) := by
  after_results_simp <;> rfl

theorem keepB_arg1 (V : Valuation τ sig (Elt F)) : after (opsB (F := F)) V (Proc.devRef .tc main_arg1) = V (Proc.devRef .tc main_arg1) := by
  after_results_simp <;> rfl
theorem keepB_arg4 (V : Valuation τ sig (Elt F)) : after (opsB (F := F)) V (Proc.devRef .tc main_arg4) = V (Proc.devRef .tc main_arg4) := by
  after_results_simp <;> rfl
theorem keepB_arg5 (V : Valuation τ sig (Elt F)) : after (opsB (F := F)) V (Proc.devRef .tc main_arg5) = V (Proc.devRef .tc main_arg5) := by
  after_results_simp <;> rfl

/-! ## Stretch C -/

/-- After stretch C the source nodes, recomputed. -/
theorem C_src (V : Valuation τ sig (Elt F)) : after (opsC (F := F)) V (Proc.devRef .tc main_v51) = srcOf (V (Proc.devRef .tc main_arg1)) := by
  after_results_simp <;> rfl

/-- After stretch C the target nodes, recomputed. -/
theorem C_dst (V : Valuation τ sig (Elt F)) : after (opsC (F := F)) V (Proc.devRef .tc main_v54) = dstOf (V (Proc.devRef .tc main_arg1)) := by
  after_results_simp <;> rfl

/-- After stretch C the per-edge normalization, recomputed. -/
theorem C_norm (V : Valuation τ sig (Elt F)) : after (opsC (F := F)) V (Proc.devRef .tc main_v77) = normOf (srcOf (V (Proc.devRef .tc main_arg1))) (dstOf (V (Proc.devRef .tc main_arg1))) := by
  after_results_simp <;> rfl

theorem keepC_v47 (V : Valuation τ sig (Elt F)) : after (opsC (F := F)) V (Proc.devRef .tc main_v47) = V (Proc.devRef .tc main_v47) := by
  after_results_simp <;> rfl
theorem keepC_arg4 (V : Valuation τ sig (Elt F)) : after (opsC (F := F)) V (Proc.devRef .tc main_arg4) = V (Proc.devRef .tc main_arg4) := by
  after_results_simp <;> rfl
theorem keepC_arg5 (V : Valuation τ sig (Elt F)) : after (opsC (F := F)) V (Proc.devRef .tc main_arg5) = V (Proc.devRef .tc main_arg5) := by
  after_results_simp <;> rfl

/-! ## Stretch D -/

/-- After stretch D the second layer before its softmax: the second product, aggregated, biased. -/
theorem D_pre (V : Valuation τ sig (Elt F)) : after (opsD (F := F)) V (Proc.devRef .tc main_v94) = addBias10 (agg10 (dot2 (V (Proc.devRef .tc main_v47)) (V (Proc.devRef .tc main_arg4))) (V (Proc.devRef .tc main_v51)) (V (Proc.devRef .tc main_v54)) (V (Proc.devRef .tc main_v77))) (V (Proc.devRef .tc main_arg5)) := by
  after_results_simp <;> rfl

/-! ## Stretch E -/

/-- After stretch E the result: the rows' log-softmax of what stretch D left. -/
theorem E_out (V : Valuation τ sig (Elt F)) : after (opsE (F := F)) V (Proc.devRef .tc main_v95) = hostLogSoftmax (V (Proc.devRef .tc main_v94)) := by
  after_results_simp
  simp only [ofBuf_toBuf]
  rfl

/-! ## The whole run -/

/-- The reference's result as one function of its six arguments. -/
def refValue (x : (⟨S100000x132, .f32⟩ : BufTy).Contents (Elt F)) (e : (⟨S2x3200000, .i32⟩ : BufTy).Contents (Elt F)) (w1 : (⟨S132x16, .f32⟩ : BufTy).Contents (Elt F)) (b1 : (⟨S16, .f32⟩ : BufTy).Contents (Elt F))
    (w2 : (⟨S16x10, .f32⟩ : BufTy).Contents (Elt F)) (b2 : (⟨S10, .f32⟩ : BufTy).Contents (Elt F)) : (⟨S100000x10, .f32⟩ : BufTy).Contents (Elt F) :=
  hostLogSoftmax (F := F) (addBias10 (F := F) (agg10 (F := F) (dot2 (F := F) (relu16 (F := F) (addBias16 (F := F) (agg16 (F := F) (dot1 (F := F) x w1)
    (srcOf (F := F) e) (dstOf (F := F) e) (normOf (F := F) (srcOf (F := F) e) (dstOf (F := F) e))) b1)) w2)
    (srcOf (F := F) e) (dstOf (F := F) e) (normOf (F := F) (srcOf (F := F) e) (dstOf (F := F) e))) b2)

/-- After all 138 operations the result buffer holds `refValue` of the arguments' contents. -/
theorem out_eq (V : Valuation τ sig (Elt F)) :
    after (ops (F := F)) V (Proc.devRef .tc main_v95)
      = refValue (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_append, E_out, D_pre]
  rw [C_src, C_dst, C_norm, keepC_v47, keepC_arg4, keepC_arg5]
  rw [B_h1, keepB_arg1, keepB_arg4, keepB_arg5]
  rw [A_src, A_dst, A_norm, keepA_arg0, keepA_arg1, keepA_arg2, keepA_arg3, keepA_arg4, keepA_arg5]
  rfl

set_option maxRecDepth 65536 in
set_option maxHeartbeats 40000000 in
/-- On every device, from any memory with zero counters: every weakly fair execution of the reference's `@main`
    terminates, the result buffer at `refValue` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = refValue (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v95).trans (out_eq _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Staged

end
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«122187_j73521250173346_1_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.RefValue.lean ====
/-
  The reference's host stages against the row-wise functions of `Spec`, at the ideal values.

  * A host matrix product is `matProd`: entry (p, q) is ∑ k, x(p,k) · w(k,q) (`dot1_eq`, `dot2_eq`).
  * A bias vector spread over the rows and added, then the maximum with a zero spread over the array, is `biasRelu`
    of the bias laid out as one row (`relu_eq`): both read the bias at the column.
  * The host's log-softmax of the biased rows is `logSoftmax` (`logSoftmax_eq`): the host takes the row maximum from −∞
    and then once more the maximum with −∞, which changes nothing (a fold of max from `n` is at least `n`), and adds
    the row's sum of exponentials to a zero, which is the sum.
  * The edge stages (endpoints, normalization, aggregations) are the kernel program's, letter for letter.
  Together: the reference's result is the kernel's result function of the same six arguments (`refValue_eq`).
-/
import proofs.«122187_j73521250173346_1_alg».proof.Proof.RefRun
import proofs.«122187_j73521250173346_1_alg».proof.Proof.KernelValue
import proofs.«122187_j73521250173346_1_alg».proof.Proof.LibHostSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Stages Cert.ReferenceIdeal.Staged Cert.Gcn
open Cert.ReferenceIdeal.Facts₀ Cert.ReferenceIdeal.Facts

/-! ## Two layout facts and the host product, generic in the sizes -/

/-- A vector of `b` entries placed as a row [1, b] and spread down the rows to [a, b] reads, at (p, q), the vector's entry q. -/
theorem rowBias_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ => show 0 = if (1 : ℕ) = 1 then 0 else p.val; rw [if_pos rfl]
    | ⟨1, _⟩ =>
      show q.val = if b = 1 then 0 else q.val
      split
      · have := q.isLt; omega
      · rfl
  · match ax with
    | ⟨0, _⟩ =>
      show q.val = if b = 1 then 0 else q.val
      split
      · have := q.isLt; omega
      · rfl

/-- A column [a, 1] spread along its unit axis to [a, b] reads, at (p, c), the column's entry p. -/
theorem col_bcast_apply {α : Type} {a b : ℕ} (w : (⟨2, ![a, 1]⟩ : Shape).Idx → α)
    (h2 : (⟨2, ![a, 1]⟩ : Shape).BroadcastsInDim ⟨2, ![a, b]⟩ ![0, 1]) (p : Fin a) (c : Fin b) :
    broadcastInDim ⟨2, ![a, b]⟩ ![0, 1] h2 w (ix2 p c) = w (ix2 p (0 : Fin 1)) := by
  refine broadcastInDim_apply ![0, 1] h2 w (ix2 p c) (ix2 p (0 : Fin 1)) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]

/-- A vector of `a` entries placed as a column [a, 1] reads, at (p, u), the vector's entry p. -/
theorem vec_col_apply {α : Type} {a : ℕ} (v : (⟨1, ![a]⟩ : Shape).Idx → α)
    (h1 : (⟨1, ![a]⟩ : Shape).BroadcastsInDim ⟨2, ![a, 1]⟩ ![0]) (p : Fin a) (u : Fin 1) :
    broadcastInDim ⟨2, ![a, 1]⟩ ![0] h1 v (ix2 p u) = v (ix1 p) := by
  refine broadcastInDim_apply ![0] h1 v (ix2 p u) (ix1 p) fun ax => ?_
  match ax with
  | ⟨0, _⟩ =>
    show p.val = if a = 1 then 0 else p.val
    split
    · have := p.isLt; omega
    · rfl

/-- A host matrix product of an [A, K] by a [K, B] matrix, read at (p, q): the sum over the contracted axis of the
    left operand's row p times the right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  show FloatOps.dotGeneral d prec .single L R (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-! ## The two products -/

theorem d1_lhs_row (i : S100000x16.Idx) (q : dot_S100000x132_S132x16_S100000x16_1_0_0_1_n_n.contr.Idx) : (dot_S100000x132_S132x16_S100000x16_1_0_0_1_n_n.lhsIdx i q 0).val = (i 0).val := by
  unfold DotDims.lhsIdx
  rw [dif_neg (show ¬(0 : Fin S100000x132.rank) ∈ dot_S100000x132_S132x16_S100000x16_1_0_0_1_n_n.lhsBatch by decide), dif_pos (show (0 : Fin S100000x132.rank) ∈ dot_S100000x132_S132x16_S100000x16_1_0_0_1_n_n.lhsNonContracting by decide)]
  rfl
theorem d1_lhs_contr (i : S100000x16.Idx) (q : dot_S100000x132_S132x16_S100000x16_1_0_0_1_n_n.contr.Idx) : (dot_S100000x132_S132x16_S100000x16_1_0_0_1_n_n.lhsIdx i q 1).val = (q ⟨0, by decide⟩).val :=
  dot_S100000x132_S132x16_S100000x16_1_0_0_1_n_n.lhsIdx_val_of_single rfl i q
theorem d1_rhs_contr (i : S100000x16.Idx) (q : dot_S100000x132_S132x16_S100000x16_1_0_0_1_n_n.contr.Idx) : (dot_S100000x132_S132x16_S100000x16_1_0_0_1_n_n.rhsIdx i q 0).val = (q ⟨0, by decide⟩).val :=
  dot_S100000x132_S132x16_S100000x16_1_0_0_1_n_n.rhsIdx_val_of_single rfl i q
theorem d1_rhs_col (i : S100000x16.Idx) (q : dot_S100000x132_S132x16_S100000x16_1_0_0_1_n_n.contr.Idx) : (dot_S100000x132_S132x16_S100000x16_1_0_0_1_n_n.rhsIdx i q 1).val = (i 1).val := by
  unfold DotDims.rhsIdx
  rw [dif_neg (show ¬(1 : Fin S132x16.rank) ∈ dot_S100000x132_S132x16_S100000x16_1_0_0_1_n_n.rhsBatch by decide), dif_pos (show (1 : Fin S132x16.rank) ∈ dot_S100000x132_S132x16_S100000x16_1_0_0_1_n_n.rhsNonContracting by decide)]
  rfl

theorem d2_lhs_row (i : S100000x10.Idx) (q : dot_S100000x16_S16x10_S100000x10_1_0_0_1_n_n.contr.Idx) : (dot_S100000x16_S16x10_S100000x10_1_0_0_1_n_n.lhsIdx i q 0).val = (i 0).val := by
  unfold DotDims.lhsIdx
  rw [dif_neg (show ¬(0 : Fin S100000x16.rank) ∈ dot_S100000x16_S16x10_S100000x10_1_0_0_1_n_n.lhsBatch by decide), dif_pos (show (0 : Fin S100000x16.rank) ∈ dot_S100000x16_S16x10_S100000x10_1_0_0_1_n_n.lhsNonContracting by decide)]
  rfl
theorem d2_lhs_contr (i : S100000x10.Idx) (q : dot_S100000x16_S16x10_S100000x10_1_0_0_1_n_n.contr.Idx) : (dot_S100000x16_S16x10_S100000x10_1_0_0_1_n_n.lhsIdx i q 1).val = (q ⟨0, by decide⟩).val :=
  dot_S100000x16_S16x10_S100000x10_1_0_0_1_n_n.lhsIdx_val_of_single rfl i q
theorem d2_rhs_contr (i : S100000x10.Idx) (q : dot_S100000x16_S16x10_S100000x10_1_0_0_1_n_n.contr.Idx) : (dot_S100000x16_S16x10_S100000x10_1_0_0_1_n_n.rhsIdx i q 0).val = (q ⟨0, by decide⟩).val :=
  dot_S100000x16_S16x10_S100000x10_1_0_0_1_n_n.rhsIdx_val_of_single rfl i q
theorem d2_rhs_col (i : S100000x10.Idx) (q : dot_S100000x16_S16x10_S100000x10_1_0_0_1_n_n.contr.Idx) : (dot_S100000x16_S16x10_S100000x10_1_0_0_1_n_n.rhsIdx i q 1).val = (i 1).val := by
  unfold DotDims.rhsIdx
  rw [dif_neg (show ¬(1 : Fin S16x10.rank) ∈ dot_S100000x16_S16x10_S100000x10_1_0_0_1_n_n.rhsBatch by decide), dif_pos (show (1 : Fin S16x10.rank) ∈ dot_S100000x16_S16x10_S100000x10_1_0_0_1_n_n.rhsNonContracting by decide)]
  rfl

/-- The first layer's host product is `matProd`. -/
theorem dot1_eq (x : (⟨S100000x132, .f32⟩ : BufTy).Contents (Elt Ideal)) (w : (⟨S132x16, .f32⟩ : BufTy).Contents (Elt Ideal)) :
    dot1 (F := Ideal) x w = matProd x w := by
  funext i
  obtain ⟨p, q, rfl⟩ : ∃ (p : Fin 100000) (q : Fin 16), i = ix2 p q := ⟨i 0, i 1, eq_ix2 i⟩
  exact dotGeneral_rows_cols dot_S100000x132_S132x16_S100000x16_1_0_0_1_n_n rfl rfl d1_lhs_row d1_lhs_contr d1_rhs_contr d1_rhs_col none x w p q

/-- The second layer's host product is `matProd`. -/
theorem dot2_eq (h : (⟨S100000x16, .f32⟩ : BufTy).Contents (Elt Ideal)) (w : (⟨S16x10, .f32⟩ : BufTy).Contents (Elt Ideal)) :
    dot2 (F := Ideal) h w = matProd h w := by
  funext i
  obtain ⟨p, q, rfl⟩ : ∃ (p : Fin 100000) (q : Fin 10), i = ix2 p q := ⟨i 0, i 1, eq_ix2 i⟩
  exact dotGeneral_rows_cols dot_S100000x16_S16x10_S100000x10_1_0_0_1_n_n rfl rfl d2_lhs_row d2_lhs_contr d2_rhs_contr d2_rhs_col none h w p q

/-! ## The bias, the relu and the log-softmax -/

/-- The host's exponential of a difference of arrays, at an index. -/
theorem host_exp_sub_apply {s : Shape} (A K : FVec Ideal s .f32) (i : s.Idx) :
    Host.exp (F := Ideal) (subf (F := Ideal) A K) i = Ideal.exp (A i - K i) := rfl

/-- The host's logarithm of an array, at an index. -/
theorem host_log_apply {s : Shape} (W : FVec Ideal s .f32) (i : s.Idx) : Host.log (F := Ideal) W i = Ideal.log (W i) := rfl

/-- A difference of a difference of arrays, at an index. -/
theorem sub_sub_apply {s : Shape} (A K L : FVec Ideal s .f32) (i : s.Idx) :
    subf (F := Ideal) (subf (F := Ideal) A K) L i = (A i - K i) - L i := rfl

/-- The maximum of two arrays, at an index. -/
theorem max_apply {s : Shape} (A B : FVec Ideal s .f32) (i : s.Idx) : maximumf (F := Ideal) A B i = max (A i) (B i) := rfl

/-- The host's biased array at (p, c) is the biased row p at c, the bias read through the kernel's one-row layout. -/
theorem addBias16_apply (a : (⟨S100000x16, .f32⟩ : BufTy).Contents (Elt Ideal)) (b : (⟨S16, .f32⟩ : BufTy).Contents (Elt Ideal)) (p : Fin 100000) (c : Fin 16) :
    addBias16 (F := Ideal) a b (ix2 p c) = biasedRow a (Cert.KernelIdeal.Stages.biasRow16 (F := Ideal) b) p c :=
  congrArg (a (ix2 p c) + ·) ((rowBias_apply b bcast_S16_S1x16_1 bcast_S1x16_S100000x16_0_1 p c).trans
    (shapeCast_a_1a_apply b Cert.KernelIdeal.Facts₀.shapeCasts_S16_S1x16 (0 : Fin 1) c).symm)

theorem addBias10_apply (a : (⟨S100000x10, .f32⟩ : BufTy).Contents (Elt Ideal)) (b : (⟨S10, .f32⟩ : BufTy).Contents (Elt Ideal)) (p : Fin 100000) (c : Fin 10) :
    addBias10 (F := Ideal) a b (ix2 p c) = biasedRow a (Cert.KernelIdeal.Stages.biasRow10 (F := Ideal) b) p c :=
  congrArg (a (ix2 p c) + ·) ((rowBias_apply b bcast_S10_S1x10_1 bcast_S1x10_S100000x10_0_1 p c).trans
    (shapeCast_a_1a_apply b Cert.KernelIdeal.Facts₀.shapeCasts_S10_S1x10 (0 : Fin 1) c).symm)

/-- The host's bias-then-relu is `biasRelu` against the zero word. -/
theorem relu_eq (a : (⟨S100000x16, .f32⟩ : BufTy).Contents (Elt Ideal)) (b : (⟨S16, .f32⟩ : BufTy).Contents (Elt Ideal)) :
    relu16 (F := Ideal) (addBias16 (F := Ideal) a b)
      = biasRelu (Ideal.ofBits .f32 0x00000000#32) a (Cert.KernelIdeal.Stages.biasRow16 (F := Ideal) b) := by
  funext i
  obtain ⟨p, q, rfl⟩ : ∃ (p : Fin 100000) (q : Fin 16), i = ix2 p q := ⟨i 0, i 1, eq_ix2 i⟩
  exact congrArg₂ max (addBias16_apply a b p q)
    (Cert.HostSoftmax.scalar_apply (constant (F := Ideal) S_ .f32 0x00000000#32) ![] bcast_S_S100000x16 (ix2 p q))

/-- The host's log-softmax of the biased rows is `logSoftmax` from the word of −∞. -/
theorem logSoftmax_eq (a : (⟨S100000x10, .f32⟩ : BufTy).Contents (Elt Ideal)) (b : (⟨S10, .f32⟩ : BufTy).Contents (Elt Ideal)) :
    hostLogSoftmax (F := Ideal) (addBias10 (F := Ideal) a b)
      = logSoftmax (Ideal.ofBits .f32 0xFF800000#32) a (Cert.KernelIdeal.Stages.biasRow10 (F := Ideal) b) := by
  funext i
  obtain ⟨p, q, rfl⟩ : ∃ (p : Fin 100000) (q : Fin 10), i = ix2 p q := ⟨i 0, i 1, eq_ix2 i⟩
  -- the biased row, its maximum kept as a column and spread back
  have hM : Host.reduce FloatOps.maximumf (addBias10 (F := Ideal) a b) (constant (F := Ideal) S_ .f32 0xFF800000#32) reducesTo_S100000x10_S100000_d1 h_S_ (ix1 p)
      = (Finset.univ : Finset (Fin 10)).fold max (Ideal.ofBits .f32 0xFF800000#32) (biasedRow a (Cert.KernelIdeal.Stages.biasRow10 (F := Ideal) b) p) :=
    (Cert.HostSoftmax.rowMax_apply (addBias10 (F := Ideal) a b) (constant (F := Ideal) S_ .f32 0xFF800000#32) reducesTo_S100000x10_S100000_d1 (by decide) h_S_ p).trans
      (congrArg (fun f => (Finset.univ : Finset (Fin 10)).fold max (Ideal.ofBits .f32 0xFF800000#32) f) (funext fun c => addBias10_apply a b p c))
  have hK : ∀ c : Fin 10, keepMax (F := Ideal) (addBias10 (F := Ideal) a b) (ix2 p c)
      = (Finset.univ : Finset (Fin 10)).fold max (Ideal.ofBits .f32 0xFF800000#32) (biasedRow a (Cert.KernelIdeal.Stages.biasRow10 (F := Ideal) b) p) :=
    fun c => (Cert.HostSoftmax.keepdims_apply _ bcast_S100000_S100000x1_0 bcast_S100000x1_S100000x10_0_1 p c).trans
      ((max_apply _ _ (ix1 p)).trans
        ((congrArg₂ max (Cert.HostSoftmax.scalar_apply (constant (F := Ideal) S_ .f32 0xFF800000#32) ![] bcast_S_S100000 (ix1 p)) hM).trans
          (max_fold_max (Ideal.ofBits .f32 0xFF800000#32) _)))
  -- the exponentials of the shifted row, and their sum from zero
  have hE : ∀ c : Fin 10, Host.exp (F := Ideal) (subf (F := Ideal) (addBias10 (F := Ideal) a b) (keepMax (F := Ideal) (addBias10 (F := Ideal) a b))) (ix2 p c)
      = Ideal.exp (biasedRow a (Cert.KernelIdeal.Stages.biasRow10 (F := Ideal) b) p c
          - (Finset.univ : Finset (Fin 10)).fold max (Ideal.ofBits .f32 0xFF800000#32) (biasedRow a (Cert.KernelIdeal.Stages.biasRow10 (F := Ideal) b) p)) :=
    fun c => (host_exp_sub_apply (addBias10 (F := Ideal) a b) (keepMax (F := Ideal) (addBias10 (F := Ideal) a b)) (ix2 p c)).trans
      (congrArg₂ (fun u v => Ideal.exp (u - v)) (addBias10_apply a b p c) (hK c))
  have hS : Host.reduceAdd (F := Ideal) (Host.exp (F := Ideal) (subf (F := Ideal) (addBias10 (F := Ideal) a b) (keepMax (F := Ideal) (addBias10 (F := Ideal) a b))))
        (constant (F := Ideal) S_ .f32 0x00000000#32) reducesTo_S100000x10_S100000_d1 h_S_ (ix1 p)
      = ∑ c : Fin 10, Ideal.exp (biasedRow a (Cert.KernelIdeal.Stages.biasRow10 (F := Ideal) b) p c
          - (Finset.univ : Finset (Fin 10)).fold max (Ideal.ofBits .f32 0xFF800000#32) (biasedRow a (Cert.KernelIdeal.Stages.biasRow10 (F := Ideal) b) p)) :=
    (Cert.HostSoftmax.rowSum_apply _ (constant (F := Ideal) S_ .f32 0x00000000#32) reducesTo_S100000x10_S100000_d1 (by decide) h_S_ p).trans
      ((congrArg₂ (· + ·) (show (constant (F := Ideal) S_ .f32 0x00000000#32) (Shape.Idx.first h_S_) = (0 : EReal) from Ideal.ofBits_zero_f32)
        (Finset.sum_congr rfl fun c _ => hE c)).trans (zero_add _))
  -- the logarithm of the sum, kept as a column and spread back
  have hL : broadcastInDim S100000x10 ![0, 1] bcast_S100000x1_S100000x10_0_1 (Host.log (F := Ideal) (broadcastInDim S100000x1 ![0] bcast_S100000_S100000x1_0
        (Host.reduceAdd (F := Ideal) (Host.exp (F := Ideal) (subf (F := Ideal) (addBias10 (F := Ideal) a b) (keepMax (F := Ideal) (addBias10 (F := Ideal) a b))))
          (constant (F := Ideal) S_ .f32 0x00000000#32) reducesTo_S100000x10_S100000_d1 h_S_))) (ix2 p q)
      = Ideal.log (∑ c : Fin 10, Ideal.exp (biasedRow a (Cert.KernelIdeal.Stages.biasRow10 (F := Ideal) b) p c
          - (Finset.univ : Finset (Fin 10)).fold max (Ideal.ofBits .f32 0xFF800000#32) (biasedRow a (Cert.KernelIdeal.Stages.biasRow10 (F := Ideal) b) p))) := by
    exact (col_bcast_apply _ bcast_S100000x1_S100000x10_0_1 p q).trans
      ((host_log_apply _ (ix2 p (0 : Fin 1))).trans
        (congrArg Ideal.log ((vec_col_apply _ bcast_S100000_S100000x1_0 p (0 : Fin 1)).trans hS)))
  refine (sub_sub_apply (addBias10 (F := Ideal) a b) (keepMax (F := Ideal) (addBias10 (F := Ideal) a b)) _ (ix2 p q)).trans ?_
  exact congrArg₂ (· - ·) (congrArg₂ (· - ·) (addBias10_apply a b p q) (hK q)) hL

/-! ## The edge stages are the kernel program's -/

theorem src_eq (e : (⟨S2x3200000, .i32⟩ : BufTy).Contents (Elt Ideal)) : srcOf (F := Ideal) e = Cert.KernelIdeal.Stages.srcOf (F := Ideal) e := rfl
theorem dst_eq (e : (⟨S2x3200000, .i32⟩ : BufTy).Contents (Elt Ideal)) : dstOf (F := Ideal) e = Cert.KernelIdeal.Stages.dstOf (F := Ideal) e := rfl
theorem norm_eq (s d : (⟨S3300000, .i32⟩ : BufTy).Contents (Elt Ideal)) : normOf (F := Ideal) s d = Cert.KernelIdeal.Stages.normOf (F := Ideal) s d := rfl
theorem agg16_eq (h : (⟨S100000x16, .f32⟩ : BufTy).Contents (Elt Ideal)) (s d : (⟨S3300000, .i32⟩ : BufTy).Contents (Elt Ideal)) (n : (⟨S3300000, .f32⟩ : BufTy).Contents (Elt Ideal)) :
    agg16 (F := Ideal) h s d n = Cert.KernelIdeal.Stages.agg16 (F := Ideal) h s d n := rfl
theorem agg10_eq (h : (⟨S100000x10, .f32⟩ : BufTy).Contents (Elt Ideal)) (s d : (⟨S3300000, .i32⟩ : BufTy).Contents (Elt Ideal)) (n : (⟨S3300000, .f32⟩ : BufTy).Contents (Elt Ideal)) :
    agg10 (F := Ideal) h s d n = Cert.KernelIdeal.Stages.agg10 (F := Ideal) h s d n := rfl

/-- The reference's result is the kernel's result function of the same six arguments. -/
theorem refValue_eq (x : (⟨S100000x132, .f32⟩ : BufTy).Contents (Elt Ideal)) (e : (⟨S2x3200000, .i32⟩ : BufTy).Contents (Elt Ideal)) (w1 : (⟨S132x16, .f32⟩ : BufTy).Contents (Elt Ideal)) (b1 : (⟨S16, .f32⟩ : BufTy).Contents (Elt Ideal))
    (w2 : (⟨S16x10, .f32⟩ : BufTy).Contents (Elt Ideal)) (b2 : (⟨S10, .f32⟩ : BufTy).Contents (Elt Ideal)) :
    refValue (F := Ideal) x e w1 b1 w2 b2 = Cert.KernelIdeal.Whole.kernelValue x e w1 b1 w2 b2 := by
  unfold refValue Cert.KernelIdeal.Whole.kernelValue
  rw [logSoftmax_eq, dot2_eq, relu_eq, dot1_eq, src_eq, dst_eq, norm_eq, agg16_eq, agg10_eq]
  try rfl

end Cert.ReferenceIdeal.RefValue

end
-- ==== Proof.lean ====
/-
  A two-layer graph convolution with a log-softmax, as a row-blocked kernel program and as its plain reference: the two
  compute the same function of their six arguments over the extended reals.

  Both programs form, from the edge list, the edge endpoints with the self loops appended and the per-edge symmetric
  normalization dinv(src) · dinv(dst); then twice "multiply the node features by a weight matrix, gather the source row
  of every edge, scale it, add it into the target row, add a bias", with a maximum with zero after the first round and
  the rows' log-softmax after the second. The kernel program runs the two products, the bias-and-relu and the
  bias-and-log-softmax in four regions that each walk ten blocks of 10000 rows, and leaves the gathers and scatters to
  the host; the reference runs everything on the host and recomputes the normalization for its second layer.

  Every blocked step is row-local — an output row depends on the same row of the input only — so block by block it
  computes the whole-array function (`Spec`, the four `Region…` modules), and the host stages between the regions are the
  same functions in both programs (`Stages`, `RefStages`). What remains is that a matrix unit's product into a zero
  accumulator and the host's `dot_general` are the same sum; that a bias spread over the rows reads the bias at the
  column however it is laid out; and that the host's log-softmax — whose row maximum is taken from −∞ and then once
  more against −∞, and whose sum of exponentials starts from zero — is the kernel's (`RefValue`). No step uses that
  the inputs are finite: the laws used (sums reindexed, a maximum against the fold's starting value, zero added) hold
  for all extended reals. The idealization pass rewrote nothing, so there is nothing to preserve beyond the text.
-/
import proofs.«122187_j73521250173346_1_alg».proof.Defs
import proofs.«122187_j73521250173346_1_alg».proof.Proof.Gen.Kernel
import proofs.«122187_j73521250173346_1_alg».proof.Proof.Gen.Kernel.Skeleton
import proofs.«122187_j73521250173346_1_alg».proof.Proof.Gen.Kernel.Launch
import proofs.«122187_j73521250173346_1_alg».proof.Proof.Gen.Kernel.Points
import proofs.«122187_j73521250173346_1_alg».proof.Proof.Gen.Kernel.Frame
import proofs.«122187_j73521250173346_1_alg».proof.Proof.Gen.KernelIdeal
import proofs.«122187_j73521250173346_1_alg».proof.Proof.Gen.KernelIdeal.Skeleton
import proofs.«122187_j73521250173346_1_alg».proof.Proof.Gen.KernelIdeal.Launch
import proofs.«122187_j73521250173346_1_alg».proof.Proof.Gen.KernelIdeal.Points
import proofs.«122187_j73521250173346_1_alg».proof.Proof.Gen.KernelIdeal.Frame
import proofs.«122187_j73521250173346_1_alg».proof.Proof.Gen.ReferenceIdeal
import proofs.«122187_j73521250173346_1_alg».proof.Proof.Gen.Pre_finite_inputs
import proofs.«122187_j73521250173346_1_alg».proof.Proof.KernelValue
import proofs.«122187_j73521250173346_1_alg».proof.Proof.RefRun
import proofs.«122187_j73521250173346_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The idealization pass rewrote no operation. -/
theorem preserves : Cert.preserves_Kernel_KernelIdeal := trivial

/-- From memories agreeing on the arguments both programs end with the same result: the kernel's result function of the
    arguments, which the reference's result function equals. -/
theorem algebraic : Cert.algebraic_KernelIdeal_ReferenceIdeal := by
  intro m ρ m' ρ' _ hagree
  refine ⟨fun c => Cert.KernelIdeal.Whole.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Staged.run (F := Ideal) m' ρ')
  obtain ⟨e0, e1, e2, e3, e4, e5⟩ := hagree c
  rw [e0, e1, e2, e3, e4, e5]
  exact Cert.ReferenceIdeal.RefValue.refValue_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
